-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x12 : Shape := ⟨2, ![1048576, 12]⟩
abbrev S1048576x24 : Shape := ⟨2, ![1048576, 24]⟩
abbrev S12x12 : Shape := ⟨2, ![12, 12]⟩
abbrev S12x24 : Shape := ⟨2, ![12, 24]⟩
abbrev S24x24 : Shape := ⟨2, ![24, 24]⟩
abbrev S_ : Shape := ⟨0, ![]⟩

class Facts : Prop where
  bcast_S_S1048576x12 : S_.BroadcastsInDim S1048576x12 (![] : Fin 0 → Fin S1048576x12.rank)
  reducesTo_S1048576x12_S_d0_1 : S1048576x12.ReducesTo [0, 1] S_
  h_S_ : 0 < S_.numel
  bcast_S_S1048576x24 : S_.BroadcastsInDim S1048576x24 (![] : Fin 0 → Fin S1048576x24.rank)
  reducesTo_S1048576x24_S_d0_1 : S1048576x24.ReducesTo [0, 1] S_
  bcast_S_S12x12 : S_.BroadcastsInDim S12x12 (![] : Fin 0 → Fin S12x12.rank)
  reducesTo_S12x12_S_d0_1 : S12x12.ReducesTo [0, 1] S_
  bcast_S_S12x24 : S_.BroadcastsInDim S12x24 (![] : Fin 0 → Fin S12x24.rank)
  reducesTo_S12x24_S_d0_1 : S12x24.ReducesTo [0, 1] S_
  bcast_S_S24x24 : S_.BroadcastsInDim S24x24 (![] : Fin 0 → Fin S24x24.rank)
  reducesTo_S24x24_S_d0_1 : S24x24.ReducesTo [0, 1] S_

variable [Facts]

def fn_part1 {F : FTy → Type} [FloatOps F] (main_arg4 : FVec F S24x24 .f32) (main_v13 : IVec S_ 1) (main_v16 : IVec S12x24 1) : IVec S_ 1 :=
  let main_c_5 : IVec S_ 1 := constantI S_ 1 1#1
  let main_v17 : IVec S_ 1 := (fun x v => Host.reduce IntOp.andi x v reducesTo_S12x24_S_d0_1 h_S_) main_v16 main_c_5
  let main_v18 : IVec S_ 1 := andi main_v13 main_v17
  let main_v19 : FVec F S24x24 .f32 := Host.absf main_arg4
  let main_cst_6 : FVec F S_ .f32 := constant S_ .f32 0x7F800000#32
  let main_v20 : FVec F S24x24 .f32 := broadcastInDim S24x24 ![] bcast_S_S24x24 main_cst_6
  let main_v21 : IVec S24x24 1 := cmpf .olt main_v19 main_v20
  let main_c_7 : IVec S_ 1 := constantI S_ 1 1#1
  let main_v22 : IVec S_ 1 := (fun x v => Host.reduce IntOp.andi x v reducesTo_S24x24_S_d0_1 h_S_) main_v21 main_c_7
  let main_v23 : IVec S_ 1 := andi main_v18 main_v22
  main_v23

def fn {F : FTy → Type} [FloatOps F] (main_arg0 : FVec F S1048576x12 .f32) (main_arg1 : FVec F S1048576x24 .f32) (main_arg2 : FVec F S12x12 .f32) (main_arg3 : FVec F S12x24 .f32) (main_arg4 : FVec F S24x24 .f32) : IVec S_ 1 :=
  let main_v0 : FVec F S1048576x12 .f32 := Host.absf main_arg0
  let main_cst : FVec F S_ .f32 := constant S_ .f32 0x7F800000#32
  let main_v1 : FVec F S1048576x12 .f32 := broadcastInDim S1048576x12 ![] bcast_S_S1048576x12 main_cst
  let main_v2 : IVec S1048576x12 1 := cmpf .olt main_v0 main_v1
  let main_c : IVec S_ 1 := constantI S_ 1 1#1
  let main_v3 : IVec S_ 1 := (fun x v => Host.reduce IntOp.andi x v reducesTo_S1048576x12_S_d0_1 h_S_) main_v2 main_c
  let main_v4 : FVec F S1048576x24 .f32 := Host.absf main_arg1
  let main_cst_0 : FVec F S_ .f32 := constant S_ .f32 0x7F800000#32
  let main_v5 : FVec F S1048576x24 .f32 := broadcastInDim S1048576x24 ![] bcast_S_S1048576x24 main_cst_0
  let main_v6 : IVec S1048576x24 1 := cmpf .olt main_v4 main_v5
  let main_c_1 : IVec S_ 1 := constantI S_ 1 1#1
  let main_v7 : IVec S_ 1 := (fun x v => Host.reduce IntOp.andi x v reducesTo_S1048576x24_S_d0_1 h_S_) main_v6 main_c_1
  let main_v8 : IVec S_ 1 := andi main_v3 main_v7
  let main_v9 : FVec F S12x12 .f32 := Host.absf main_arg2
  let main_cst_2 : FVec F S_ .f32 := constant S_ .f32 0x7F800000#32
  let main_v10 : FVec F S12x12 .f32 := broadcastInDim S12x12 ![] bcast_S_S12x12 main_cst_2
  let main_v11 : IVec S12x12 1 := cmpf .olt main_v9 main_v10
  let main_c_3 : IVec S_ 1 := constantI S_ 1 1#1
  let main_v12 : IVec S_ 1 := (fun x v => Host.reduce IntOp.andi x v reducesTo_S12x12_S_d0_1 h_S_) main_v11 main_c_3
  let main_v13 : IVec S_ 1 := andi main_v8 main_v12
  let main_v14 : FVec F S12x24 .f32 := Host.absf main_arg3
  let main_cst_4 : FVec F S_ .f32 := constant S_ .f32 0x7F800000#32
  let main_v15 : FVec F S12x24 .f32 := broadcastInDim S12x24 ![] bcast_S_S12x24 main_cst_4
  let main_v16 : IVec S12x24 1 := cmpf .olt main_v14 main_v15
  fn_part1 (F := F) main_arg4 main_v13 main_v16
-- ==== Kernel.lean ====
abbrev S1048576x12 : Shape := ⟨2, ![1048576, 12]⟩
abbrev S1048576x24 : Shape := ⟨2, ![1048576, 24]⟩
abbrev S12x12 : Shape := ⟨2, ![12, 12]⟩
abbrev S12x24 : Shape := ⟨2, ![12, 24]⟩
abbrev S24x24 : Shape := ⟨2, ![24, 24]⟩
abbrev S2048x12 : Shape := ⟨2, ![2048, 12]⟩
abbrev S2048x24 : Shape := ⟨2, ![2048, 24]⟩

abbrev nBuf : Space → Nat
  | .hbm => 9
  | .vmem => 15
  | .smem => 0
  | _ => 0

abbrev bufTy : (tb : Table) → Fin (tcTables nBuf tb) → BufTy
  | .hbm, ⟨0, _⟩ => ⟨S1048576x12, .f32⟩
  | .hbm, ⟨1, _⟩ => ⟨S1048576x24, .f32⟩
  | .hbm, ⟨2, _⟩ => ⟨S12x12, .f32⟩
  | .hbm, ⟨3, _⟩ => ⟨S12x24, .f32⟩
  | .hbm, ⟨4, _⟩ => ⟨S24x24, .f32⟩
  | .hbm, ⟨5, _⟩ => ⟨S12x24, .f32⟩
  | .hbm, ⟨6, _⟩ => ⟨S24x24, .f32⟩
  | .hbm, ⟨7, _⟩ => ⟨S1048576x12, .f32⟩
  | .hbm, ⟨8, _⟩ => ⟨S1048576x24, .f32⟩
  | .local _ .vmem, ⟨0, _⟩ => ⟨S2048x12, .f32⟩
  | .local _ .vmem, ⟨1, _⟩ => ⟨S2048x12, .f32⟩
  | .local _ .vmem, ⟨2, _⟩ => ⟨S2048x24, .f32⟩
  | .local _ .vmem, ⟨3, _⟩ => ⟨S2048x24, .f32⟩
  | .local _ .vmem, ⟨4, _⟩ => ⟨S12x12, .f32⟩
  | .local _ .vmem, ⟨5, _⟩ => ⟨S12x24, .f32⟩
  | .local _ .vmem, ⟨6, _⟩ => ⟨S24x24, .f32⟩
  | .local _ .vmem, ⟨7, _⟩ => ⟨S12x24, .f32⟩
  | .local _ .vmem, ⟨8, _⟩ => ⟨S24x24, .f32⟩
  | .local _ .vmem, ⟨9, _⟩ => ⟨S2048x12, .f32⟩
  | .local _ .vmem, ⟨10, _⟩ => ⟨S2048x12, .f32⟩
  | .local _ .vmem, ⟨11, _⟩ => ⟨S2048x24, .f32⟩
  | .local _ .vmem, ⟨12, _⟩ => ⟨S2048x24, .f32⟩
  | .local _ .vmem, ⟨13, _⟩ => ⟨S12x24, .f32⟩
  | .local _ .vmem, ⟨14, _⟩ => ⟨S24x24, .f32⟩
  | _, _ => ⟨S1048576x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v34 : BitVec 1 := Scalar.cmpi .eq arg0 c511_i32
  let v35 : BitVec 32 := Scalar.extui v34
  let c0_i32_28 : BitVec 32 := 0#32
  let v36 : BitVec 1 := Scalar.cmpi .ne v35 c0_i32_28
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S12x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x12 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x24 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S12x24_S12x24_0_0 : ∀ a, (![0, 0] : Fin 2 → Nat) a + S12x24.size a ≤ S12x24.size a
  h_S12x24 : 0 < S12x24.numel
  shapeCasts_S12x24_S12x24 : S12x24.ShapeCasts S12x24
  inb_S24x24_S24x24_0_0 : ∀ a, (![0, 0] : Fin 2 → Nat) a + S24x24.size a ≤ S24x24.size a
  h_S24x24 : 0 < S24x24.numel
  shapeCasts_S24x24_S24x24 : S24x24.ShapeCasts S24x24
  inb_S2048x12_S2048x12_0_0 : ∀ a, (![0, 0] : Fin 2 → Nat) a + S2048x12.size a ≤ S2048x12.size a
  h_S2048x12 : 0 < S2048x12.numel
  inb_S2048x24_S2048x24_0_0 : ∀ a, (![0, 0] : Fin 2 → Nat) a + S2048x24.size a ≤ S2048x24.size a
  h_S2048x24 : 0 < S2048x24.numel
  inb_S12x12_S12x12_0_0 : ∀ a, (![0, 0] : Fin 2 → Nat) a + S12x12.size a ≤ S12x12.size a
  h_S12x12 : 0 < S12x12.numel
  natLt_1_32 : 1 < 32
  dot_S2048x12_S12x12_S2048x12_1_0_0_1_n_n_wf : DotDims.WF S2048x12 S12x12 S2048x12 [1] [0] [0] [1] [] []
  dot_S2048x12_S12x24_S2048x24_1_0_0_1_n_n_wf : DotDims.WF S2048x12 S12x24 S2048x24 [1] [0] [0] [1] [] []
  dot_S2048x24_S24x24_S2048x24_1_0_0_1_n_n_wf : DotDims.WF S2048x24 S24x24 S2048x24 [1] [0] [0] [1] [] []
  dot_S2048x12_S2048x24_S12x24_0_0_1_1_n_n_wf : DotDims.WF S2048x12 S2048x24 S12x24 [0] [0] [1] [1] [] []
  dot_S2048x24_S2048x24_S24x24_0_0_1_1_n_n_wf : DotDims.WF S2048x24 S2048x24 S24x24 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x12.size a ≤ S1048576x12.size a
  hwx0_0 : ∀ i : grid0.Coords, EltTy.bits .f32 = 32 ∨ (Rect.block (s := S1048576x12) S2048x12.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x24.size a ≤ S1048576x24.size a
  hwx0_1 : ∀ i : grid0.Coords, EltTy.bits .f32 = 32 ∨ (Rect.block (s := S1048576x24) S2048x24.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12x12.size a ≤ S12x12.size a
  hwx0_2 : ∀ i : grid0.Coords, EltTy.bits .f32 = 32 ∨ (Rect.block (s := S12x12) S12x12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x24.size a ≤ S12x24.size a
  hwx0_3 : ∀ i : grid0.Coords, EltTy.bits .f32 = 32 ∨ (Rect.block (s := S12x24) S12x24.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x24.size a ≤ S24x24.size a
  hwx0_4 : ∀ i : grid0.Coords, EltTy.bits .f32 = 32 ∨ (Rect.block (s := S24x24) S24x24.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x24.size a ≤ S12x24.size a
  hwx0_5 : ∀ i : grid0.Coords, EltTy.bits .f32 = 32 ∨ (Rect.block (s := S12x24) S12x24.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x24.size a ≤ S24x24.size a
  hwx0_6 : ∀ i : grid0.Coords, EltTy.bits .f32 = 32 ∨ (Rect.block (s := S24x24) S24x24.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x12.size a ≤ S1048576x12.size a
  hwx0_7 : ∀ i : grid0.Coords, EltTy.bits .f32 = 32 ∨ (Rect.block (s := S1048576x12) S2048x12.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x24.size a ≤ S1048576x24.size a
  hwx0_8 : ∀ i : grid0.Coords, EltTy.bits .f32 = 32 ∨ (Rect.block (s := S1048576x24) S2048x24.size (cc0_transform_8 i) (hinb0_8 i)).WholeWords (EltTy.packing .f32)

variable [Facts₀]

def dot_S2048x12_S12x12_S2048x12_1_0_0_1_n_n : DotDims S2048x12 S12x12 S2048x12 where
  lhsContracting := [1]
  rhsContracting := [0]
  lhsNonContracting := [0]
  rhsNonContracting := [1]
  lhsBatch := []
  rhsBatch := []
  wf := dot_S2048x12_S12x12_S2048x12_1_0_0_1_n_n_wf
def dot_S2048x12_S12x24_S2048x24_1_0_0_1_n_n : DotDims S2048x12 S12x24 S2048x24 where
  lhsContracting := [1]
  rhsContracting := [0]
  lhsNonContracting := [0]
  rhsNonContracting := [1]
  lhsBatch := []
  rhsBatch := []
  wf := dot_S2048x12_S12x24_S2048x24_1_0_0_1_n_n_wf
def dot_S2048x24_S24x24_S2048x24_1_0_0_1_n_n : DotDims S2048x24 S24x24 S2048x24 where
  lhsContracting := [1]
  rhsContracting := [0]
  lhsNonContracting := [0]
  rhsNonContracting := [1]
  lhsBatch := []
  rhsBatch := []
  wf := dot_S2048x24_S24x24_S2048x24_1_0_0_1_n_n_wf
def dot_S2048x12_S2048x24_S12x24_0_0_1_1_n_n : DotDims S2048x12 S2048x24 S12x24 where
  lhsContracting := [0]
  rhsContracting := [0]
  lhsNonContracting := [1]
  rhsNonContracting := [1]
  lhsBatch := []
  rhsBatch := []
  wf := dot_S2048x12_S2048x24_S12x24_0_0_1_1_n_n_wf
def dot_S2048x24_S2048x24_S24x24_0_0_1_1_n_n : DotDims S2048x24 S2048x24 S24x24 where
  lhsContracting := [0]
  rhsContracting := [0]
  lhsNonContracting := [1]
  rhsNonContracting := [1]
  lhsBatch := []
  rhsBatch := []
  wf := dot_S2048x24_S2048x24_S24x24_0_0_1_1_n_n_wf

abbrev win0_0 : Pipeline.Window sig grid0 :=
  Pipeline.Window.ofSpec (Memref.whole main_arg0) S2048x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x24.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12x12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S12x24.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x24.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S12x24.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S24x24.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S2048x12.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_3) S2048x24.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun i => !(k0_cond2 i == 1#1) | 6 => fun i => !(k0_cond2 i == 1#1) | 7 => fun _ => false | 8 => fun _ => false | ⟨_ + 9, h⟩ => absurd h (Nat.not_lt.2 (Nat.le_add_left _ _))

class Facts : Prop extends Facts₀ where

variable [Facts]
-- ==== ReferenceIdeal.lean ====
abbrev S1048576x12 : Shape := ⟨2, ![1048576, 12]⟩
abbrev S1048576x24 : Shape := ⟨2, ![1048576, 24]⟩
abbrev S12x12 : Shape := ⟨2, ![12, 12]⟩
abbrev S12x24 : Shape := ⟨2, ![12, 24]⟩
abbrev S24x24 : Shape := ⟨2, ![24, 24]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1048576x12, .f32⟩
  | .hbm, ⟨1, _⟩ => ⟨S1048576x24, .f32⟩
  | .hbm, ⟨2, _⟩ => ⟨S12x12, .f32⟩
  | .hbm, ⟨3, _⟩ => ⟨S12x24, .f32⟩
  | .hbm, ⟨4, _⟩ => ⟨S24x24, .f32⟩
  | .hbm, ⟨5, _⟩ => ⟨S1048576x12, .f32⟩
  | .hbm, ⟨6, _⟩ => ⟨S_, .f32⟩
  | .hbm, ⟨7, _⟩ => ⟨S1048576x12, .f32⟩
  | .hbm, ⟨8, _⟩ => ⟨S1048576x12, .i1⟩
  | .hbm, ⟨9, _⟩ => ⟨S1048576x12, .f32⟩
  | .hbm, ⟨10, _⟩ => ⟨S1048576x24, .f32⟩
  | .hbm, ⟨11, _⟩ => ⟨S1048576x24, .f32⟩
  | .hbm, ⟨12, _⟩ => ⟨S1048576x24, .f32⟩
  | .hbm, ⟨13, _⟩ => ⟨S_, .f32⟩
  | .hbm, ⟨14, _⟩ => ⟨S1048576x24, .f32⟩
  | .hbm, ⟨15, _⟩ => ⟨S1048576x24, .i1⟩
  | .hbm, ⟨16, _⟩ => ⟨S1048576x24, .f32⟩
  | .hbm, ⟨17, _⟩ => ⟨S12x24, .f32⟩
  | .hbm, ⟨18, _⟩ => ⟨S24x24, .f32⟩
  | _, _ => ⟨S1048576x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S1048576x12 : S_.BroadcastsInDim S1048576x12 (![] : Fin 0 → Fin S1048576x12.rank)
  bcast_S_S1048576x24 : S_.BroadcastsInDim S1048576x24 (![] : Fin 0 → Fin S1048576x24.rank)
  dot_S1048576x12_S12x12_S1048576x12_1_0_0_1_n_n_wf : DotDims.WF S1048576x12 S12x12 S1048576x12 [1] [0] [0] [1] [] []
  dot_S1048576x12_S12x24_S1048576x24_1_0_0_1_n_n_wf : DotDims.WF S1048576x12 S12x24 S1048576x24 [1] [0] [0] [1] [] []
  dot_S1048576x24_S24x24_S1048576x24_1_0_0_1_n_n_wf : DotDims.WF S1048576x24 S24x24 S1048576x24 [1] [0] [0] [1] [] []
  dot_S1048576x12_S1048576x24_S12x24_0_0_1_1_n_n_wf : DotDims.WF S1048576x12 S1048576x24 S12x24 [0] [0] [1] [1] [] []
  dot_S1048576x24_S1048576x24_S24x24_0_0_1_1_n_n_wf : DotDims.WF S1048576x24 S1048576x24 S24x24 [0] [0] [1] [1] [] []

variable [Facts₀]

def dot_S1048576x12_S12x12_S1048576x12_1_0_0_1_n_n : DotDims S1048576x12 S12x12 S1048576x12 where
  lhsContracting := [1]
  rhsContracting := [0]
  lhsNonContracting := [0]
  rhsNonContracting := [1]
  lhsBatch := []
  rhsBatch := []
  wf := dot_S1048576x12_S12x12_S1048576x12_1_0_0_1_n_n_wf
def dot_S1048576x12_S12x24_S1048576x24_1_0_0_1_n_n : DotDims S1048576x12 S12x24 S1048576x24 where
  lhsContracting := [1]
  rhsContracting := [0]
  lhsNonContracting := [0]
  rhsNonContracting := [1]
  lhsBatch := []
  rhsBatch := []
  wf := dot_S1048576x12_S12x24_S1048576x24_1_0_0_1_n_n_wf
def dot_S1048576x24_S24x24_S1048576x24_1_0_0_1_n_n : DotDims S1048576x24 S24x24 S1048576x24 where
  lhsContracting := [1]
  rhsContracting := [0]
  lhsNonContracting := [0]
  rhsNonContracting := [1]
  lhsBatch := []
  rhsBatch := []
  wf := dot_S1048576x24_S24x24_S1048576x24_1_0_0_1_n_n_wf
def dot_S1048576x12_S1048576x24_S12x24_0_0_1_1_n_n : DotDims S1048576x12 S1048576x24 S12x24 where
  lhsContracting := [0]
  rhsContracting := [0]
  lhsNonContracting := [1]
  rhsNonContracting := [1]
  lhsBatch := []
  rhsBatch := []
  wf := dot_S1048576x12_S1048576x24_S12x24_0_0_1_1_n_n_wf
def dot_S1048576x24_S1048576x24_S24x24_0_0_1_1_n_n : DotDims S1048576x24 S1048576x24 S24x24 where
  lhsContracting := [0]
  rhsContracting := [0]
  lhsNonContracting := [1]
  rhsNonContracting := [1]
  lhsBatch := []
  rhsBatch := []
  wf := dot_S1048576x24_S1048576x24_S24x24_0_0_1_1_n_n_wf

class Facts : Prop extends Facts₀ where

variable [Facts]
-- ==== Proof.Pieces.lean ====
/-
  What one grid point of the kernel leaves behind, as values.

  The grid has 512 points; point t works on rows 2048·t … 2048·t + 2047. At every point the body stores the two
  layers' spikes of its rows into the two spike outputs' blocks, and adds the block's two sums of outer products into
  two accumulators that persist from point to point; at the first point the accumulators are first reset to zero, and at the last
  point they are copied into the two weight-update outputs. The three kinds of point (first, middle, last) are the three
  cases below. Each lemma reads what the stores of one case leave in one buffer: the stored value as a function of the
  blocks the body loaded (and, for an accumulator, of what it held before). They hold for every float instance.
-/
import proofs.«138860_j46213848105973_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body is at offset (0, 0). -/
theorem hz : (![0, 0] : Fin 2 → Nat) = fun _ => 0 := funext fun a => by fin_cases a <;> rfl

/-- At a first grid point (the accumulators are reset there) the body leaves, in the first spike output's block, the first-layer spikes of the point's rows. -/
theorem spikes0_A (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : cond0_0 i) (hc1 : ¬cond0_1 i)
    (x0 : Vec F S2048x12 .f32) (x1 : Vec F S2048x24 .f32) (x2 : Vec F S12x12 .f32) (x3 : Vec F S12x24 .f32) (x4 : Vec F S24x24 .f32) :
    out0_A_7 c i arg1 harg1 arg2 harg2 arg3 harg3 arg4 harg4 arg5 harg5 arg6 harg6 arg7 harg7 arg8 harg8 arg9 harg9 arg10 harg10 arg11 harg11 hc0 hc1 x0 x1 x2 x3 x4 = k0_pay4 x0 x2 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a first grid point (the accumulators are reset there) the body leaves, in the second spike output's block, the second-layer spikes of the point's rows. -/
theorem spikes1_A (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : cond0_0 i) (hc1 : ¬cond0_1 i)
    (x0 : Vec F S2048x12 .f32) (x1 : Vec F S2048x24 .f32) (x2 : Vec F S12x12 .f32) (x3 : Vec F S12x24 .f32) (x4 : Vec F S24x24 .f32) :
    out0_A_8 c i arg1 harg1 arg2 harg2 arg3 harg3 arg4 harg4 arg5 harg5 arg6 harg6 arg7 harg7 arg8 harg8 arg9 harg9 arg10 harg10 arg11 harg11 hc0 hc1 x0 x1 x2 x3 x4 = k0_pay5 x0 x1 x2 x3 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a first grid point (the accumulators are reset there) the first accumulator ends at the zero block plus the block's sum of outer products of the two layers' spikes. -/
theorem total1_A (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : cond0_0 i) (hc1 : ¬cond0_1 i)
    (x0 : Vec F S2048x12 .f32) (x1 : Vec F S2048x24 .f32) (x2 : Vec F S12x12 .f32) (x3 : Vec F S12x24 .f32) (x4 : Vec F S24x24 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 = k0_pay6 x0 x1 x2 x3 x4 k0_pay2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S12x24) hz, View.readCov_unit_zero (S := S12x24) _ hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a first grid point (the accumulators are reset there) the second accumulator ends at the zero block plus the block's sum of outer products of the direct inputs and the second layer's spikes. -/
theorem total2_A (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : cond0_0 i) (hc1 : ¬cond0_1 i)
    (x0 : Vec F S2048x12 .f32) (x1 : Vec F S2048x24 .f32) (x2 : Vec F S12x12 .f32) (x3 : Vec F S12x24 .f32) (x4 : Vec F S24x24 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 = k0_pay1 x1 (k0_pay5 x0 x1 x2 x3 x4) k0_pay3 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S24x24) hz, View.readCov_unit_zero (S := S24x24) _ hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a grid point that is neither the first nor the last the body leaves, in the first spike output's block, the first-layer spikes of the point's rows. -/
theorem spikes0_B (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : ¬cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_B_7 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay4 x0 x2 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a grid point that is neither the first nor the last the body leaves, in the second spike output's block, the second-layer spikes of the point's rows. -/
theorem spikes1_B (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : ¬cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay5 x0 x1 x2 x3 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a grid point that is neither the first nor the last the first accumulator ends at what it held plus the block's sum of outer products of the two layers' spikes. -/
theorem total1_B (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : ¬cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay6 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a grid point that is neither the first nor the last the second accumulator ends at what it held plus the block's sum of outer products of the direct inputs and the second layer's spikes. -/
theorem total2_B (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : ¬cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay1 x1 (k0_pay5 x0 x1 x2 x3 x4) xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_B
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a last grid point (the accumulators are also copied out there) the body leaves, in the first spike output's block, the first-layer spikes of the point's rows. -/
theorem spikes0_C (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_C_7 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay4 x0 x2 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a last grid point (the accumulators are also copied out there) the body leaves, in the second spike output's block, the second-layer spikes of the point's rows. -/
theorem spikes1_C (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay5 x0 x1 x2 x3 x4 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a last grid point (the accumulators are also copied out there) the first accumulator ends at what it held plus the block's sum of outer products of the two layers' spikes. -/
theorem total1_C (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay6 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At a last grid point (the accumulators are also copied out there) the second accumulator ends at what it held plus the block's sum of outer products of the direct inputs and the second layer's spikes. -/
theorem total2_C (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay1 x1 (k0_pay5 x0 x1 x2 x3 x4) xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At the last grid point the first weight-update output receives the first accumulator as the point leaves it. -/
theorem copied1 (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay6 x0 x1 x2 x3 x4 xs0 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz, View.readCov_unit_zero (S := S12x24) _ hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

/-- At the last grid point the second weight-update output receives the second accumulator as the point leaves it. -/
theorem copied2 (c : Dev nD) (i : grid0.Coords) (arg1 : Memref sig .tc .vmem S2048x12 .f32) (harg1 : arg1.IsWhole) (arg2 : Memref sig .tc .vmem S2048x24 .f32) (harg2 : arg2.IsWhole) (arg3 : Memref sig .tc .vmem S12x12 .f32) (harg3 : arg3.IsWhole) (arg4 : Memref sig .tc .vmem S12x24 .f32) (harg4 : arg4.IsWhole) (arg5 : Memref sig .tc .vmem S24x24 .f32) (harg5 : arg5.IsWhole) (arg6 : Memref sig .tc .vmem S12x24 .f32) (harg6 : arg6.IsWhole) (arg7 : Memref sig .tc .vmem S24x24 .f32) (harg7 : arg7.IsWhole) (arg8 : Memref sig .tc .vmem S2048x12 .f32) (harg8 : arg8.IsWhole) (arg9 : Memref sig .tc .vmem S2048x24 .f32) (harg9 : arg9.IsWhole) (arg10 : Memref sig .tc .vmem S12x24 .f32) (harg10 : arg10.IsWhole) (arg11 : Memref sig .tc .vmem S24x24 .f32) (harg11 : arg11.IsWhole) (hc0 : ¬cond0_0 i) (hc1 : cond0_1 i)
    (x0 : Vec F S2048x12 .f32) (x1 : Vec F S2048x24 .f32) (x2 : Vec F S12x12 .f32) (x3 : Vec F S12x24 .f32) (x4 : Vec F S24x24 .f32) (xs0 : Vec F S12x24 .f32) (xs1 : Vec F S24x24 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1 = k0_pay1 x1 (k0_pay5 x0 x1 x2 x3 x4) xs1 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz, View.readCov_unit_zero (S := S24x24) _ hz]
  simp only [View.readAt_eq_ld, harg1.read_unread, harg2.read_unread, harg3.read_unread, harg4.read_unread, harg5.read_unread, harg10.read_unread, harg11.read_unread, View.ld_unit_zero (S := S2048x12) hz, View.ld_unit_zero (S := S2048x24) hz, View.ld_unit_zero (S := S12x12) hz, View.ld_unit_zero (S := S12x24) hz, View.ld_unit_zero (S := S24x24) hz]

end Cert.KernelIdeal.Pieces

end
-- ==== Proof.Chain.lean ====
/-
  The kernel's buffers after each grid point, in closed form.

  After point t the two spike outputs' blocks hold the spikes of the point's rows. The two accumulators hold a running
  total: after point 0 the reset value plus the first block's sums of outer products, after point n + 1 what they
  held after point n plus block n + 1's sums. At the last point the two weight-update outputs receive the running
  totals. The frame's record of what the buffers hold point by point is this recursion: by induction on the point,
  one step per kind of point (first, middle, last). Everything here holds for every float instance.
-/
import proofs.«138860_j46213848105973_2_alg».proof.Proof.Gen.KernelIdeal.Frame
import proofs.«138860_j46213848105973_2_alg».proof.Proof.Pieces

noncomputable section

open Idealize.ShloMosaic Idealize.ShloMosaic.TcCoe Idealize.SL.Sem

namespace Cert.KernelIdeal.Chain

open Cert.KernelIdeal Cert.KernelIdeal.Gen

variable {F : FTy → Type} [FloatOps F]
variable (m : (ℓ : Loc nD τ sig) → Buf (Elt F) ℓ)

/-- The second-layer spikes of point `t`'s rows. -/
abbrev spikes1 (c : Dev nD) (t : Fin cfg0.N) : Vec F S2048x24 .f32 :=
  k0_pay5 (iblk m c 0 t) (iblk m c 1 t) (iblk m c 2 t) (iblk m c 3 t) (iblk m c 4 t)

/-- The first accumulator after point `n`: the reset value plus block 0's sums, then plus block n's. -/
def total1 (c : Dev nD) : (n : ℕ) → n < cfg0.N → Vec F S12x24 .f32
  | 0, h => k0_pay6 (iblk m c 0 ⟨0, h⟩) (iblk m c 1 ⟨0, h⟩) (iblk m c 2 ⟨0, h⟩) (iblk m c 3 ⟨0, h⟩) (iblk m c 4 ⟨0, h⟩) k0_pay2
  | n + 1, h => k0_pay6 (iblk m c 0 ⟨n + 1, h⟩) (iblk m c 1 ⟨n + 1, h⟩) (iblk m c 2 ⟨n + 1, h⟩) (iblk m c 3 ⟨n + 1, h⟩)
      (iblk m c 4 ⟨n + 1, h⟩) (total1 c n (Nat.lt_of_succ_lt h))

/-- The second accumulator after point `n`, likewise. -/
def total2 (c : Dev nD) : (n : ℕ) → n < cfg0.N → Vec F S24x24 .f32
  | 0, h => k0_pay1 (iblk m c 1 ⟨0, h⟩) (spikes1 m c ⟨0, h⟩) k0_pay3
  | n + 1, h => k0_pay1 (iblk m c 1 ⟨n + 1, h⟩) (spikes1 m c ⟨n + 1, h⟩) (total2 c n (Nat.lt_of_succ_lt h))

/-- What the frame records for the two accumulators after point `n` is the running total. -/
theorem totals_eq (c : Dev nD) : ∀ (n : ℕ) (h : n < cfg0.N),
    (outsAt0 m c n h).2.2.2.2.1 = total1 m c n h ∧ (outsAt0 m c n h).2.2.2.2.2 = total2 m c n h
  | 0, h => by
    have h0 : (⟨0, h⟩ : Fin cfg0.N).val % 512 = 0 := rfl
    have h1 : ¬(⟨0, h⟩ : Fin cfg0.N).val % 512 = 511 := by dsimp only; omega
    have e := outsAt0_A m c ⟨0, h⟩ h0 h1
    refine ⟨(congrArg (fun p => p.2.2.2.2.1) e).trans ?_, (congrArg (fun p => p.2.2.2.2.2) e).trans ?_⟩
    · exact Pieces.total1_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) ((hcond0_0 ⟨0, h⟩).mpr h0) (fun hq => h1 ((hcond0_1 ⟨0, h⟩).mp hq)) (iblk m c 0 ⟨0, h⟩) (iblk m c 1 ⟨0, h⟩) (iblk m c 2 ⟨0, h⟩) (iblk m c 3 ⟨0, h⟩) (iblk m c 4 ⟨0, h⟩)
    · exact Pieces.total2_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) scM0_1 (Memref.isWhole_whole _) ((hcond0_0 ⟨0, h⟩).mpr h0) (fun hq => h1 ((hcond0_1 ⟨0, h⟩).mp hq)) (iblk m c 0 ⟨0, h⟩) (iblk m c 1 ⟨0, h⟩) (iblk m c 2 ⟨0, h⟩) (iblk m c 3 ⟨0, h⟩) (iblk m c 4 ⟨0, h⟩)
  | n + 1, h => by
    have hN : n + 1 < 512 := lt_of_lt_of_eq h (show cfg0.N = 512 from N_0)
    have ih := totals_eq c n (Nat.lt_of_succ_lt h)
    have h0 : ¬(⟨n + 1, h⟩ : Fin cfg0.N).val % 512 = 0 := by dsimp only; omega
    by_cases h1 : (⟨n + 1, h⟩ : Fin cfg0.N).val % 512 = 511
    · have e := outsAt0_C m c ⟨n + 1, h⟩ h0 h1
      refine ⟨(congrArg (fun p => p.2.2.2.2.1) e).trans ?_, (congrArg (fun p => p.2.2.2.2.2) e).trans ?_⟩
      · refine (Pieces.total1_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hq => h0 ((hcond0_0 (⟨n + 1, h⟩ : Fin cfg0.N)).mp hq)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
        show k0_pay6 _ _ _ _ _ (outsAt0 m c n _).2.2.2.2.1 = k0_pay6 _ _ _ _ _ (total1 m c n _)
        rw [ih.1]
      · refine (Pieces.total2_C c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hq => h0 ((hcond0_0 (⟨n + 1, h⟩ : Fin cfg0.N)).mp hq)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
        show k0_pay1 _ _ (outsAt0 m c n _).2.2.2.2.2 = k0_pay1 _ _ (total2 m c n _)
        rw [ih.2]
    · have e := outsAt0_B m c ⟨n + 1, h⟩ h0 h1
      refine ⟨(congrArg (fun p => p.2.2.2.2.1) e).trans ?_, (congrArg (fun p => p.2.2.2.2.2) e).trans ?_⟩
      · refine (Pieces.total1_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
        show k0_pay6 _ _ _ _ _ (outsAt0 m c n _).2.2.2.2.1 = k0_pay6 _ _ _ _ _ (total1 m c n _)
        rw [ih.1]
      · refine (Pieces.total2_B c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N)) (ms0_4 (⟨n + 1, h⟩ : Fin cfg0.N)) (hs0_4 (⟨n + 1, h⟩ : Fin cfg0.N)) (ms0_5 (⟨n + 1, h⟩ : Fin cfg0.N)) (hs0_5 (⟨n + 1, h⟩ : Fin cfg0.N)) (ms0_6 (⟨n + 1, h⟩ : Fin cfg0.N)) (hs0_6 (⟨n + 1, h⟩ : Fin cfg0.N)) (ms0_7 (⟨n + 1, h⟩ : Fin cfg0.N)) (hs0_7 (⟨n + 1, h⟩ : Fin cfg0.N)) (ms0_8 (⟨n + 1, h⟩ : Fin cfg0.N)) (hs0_8 (⟨n + 1, h⟩ : Fin cfg0.N)) scM0_0 (Memref.isWhole_whole _) scM0_1 (Memref.isWhole_whole _) (fun hq => h0 ((hcond0_0 (⟨n + 1, h⟩ : Fin cfg0.N)).mp hq)) (fun hq => h1 ((hcond0_1 (⟨n + 1, h⟩ : Fin cfg0.N)).mp hq)) (iblk m c 0 (⟨n + 1, h⟩ : Fin cfg0.N)) (iblk m c 1 (⟨n + 1, h⟩ : Fin cfg0.N)) (iblk m c 2 (⟨n + 1, h⟩ : Fin cfg0.N)) (iblk m c 3 (⟨n + 1, h⟩ : Fin cfg0.N)) (iblk m c 4 (⟨n + 1, h⟩ : Fin cfg0.N)) (outsAt0 m c ((⟨n + 1, h⟩ : Fin cfg0.N).val - 1) (Nat.lt_of_le_of_lt (Nat.sub_le _ _) (⟨n + 1, h⟩ : Fin cfg0.N).isLt)).2.2.2.2.1 (outsAt0 m c ((⟨n + 1, h⟩ : Fin cfg0.N).val - 1) (Nat.lt_of_le_of_lt (Nat.sub_le _ _) (⟨n + 1, h⟩ : Fin cfg0.N).isLt)).2.2.2.2.2).trans ?_
        show k0_pay1 _ _ (outsAt0 m c n _).2.2.2.2.2 = k0_pay1 _ _ (total2 m c n _)
        rw [ih.2]

/-- After every point the first spike output's block holds the first-layer spikes of the point's rows. (By the kind of point: the first, the last, or one between.) -/
theorem spikes0_at (c : Dev nD) (t : Fin cfg0.N) : (outsAt0 m c t.val t.isLt).2.2.1 = k0_pay4 (iblk m c 0 t) (iblk m c 2 t) := by
  have hN : t.val < 512 := lt_of_lt_of_eq t.isLt (show cfg0.N = 512 from N_0)
  by_cases h0 : t.val % 512 = 0
  · have h1 : ¬t.val % 512 = 511 := by omega
    rw [outsAt0_A m c t h0 h1]
    dsimp only
    rw [Pieces.spikes0_A]
  · by_cases h1 : t.val % 512 = 511
    · rw [outsAt0_C m c t h0 h1]
      dsimp only
      rw [Pieces.spikes0_C]
    · rw [outsAt0_B m c t h0 h1]
      dsimp only
      rw [Pieces.spikes0_B]

/-- After every point the second spike output's block holds the second-layer spikes of the point's rows. (By the kind of point: the first, the last, or one between.) -/
theorem spikes1_at (c : Dev nD) (t : Fin cfg0.N) : (outsAt0 m c t.val t.isLt).2.2.2.1 = spikes1 m c t := by
  have hN : t.val < 512 := lt_of_lt_of_eq t.isLt (show cfg0.N = 512 from N_0)
  by_cases h0 : t.val % 512 = 0
  · have h1 : ¬t.val % 512 = 511 := by omega
    rw [outsAt0_A m c t h0 h1]
    dsimp only
    rw [Pieces.spikes1_A]
  · by_cases h1 : t.val % 512 = 511
    · rw [outsAt0_C m c t h0 h1]
      dsimp only
      rw [Pieces.spikes1_C]
    · rw [outsAt0_B m c t h0 h1]
      dsimp only
      rw [Pieces.spikes1_B]

/-- At the last point the two weight-update outputs' blocks receive the running totals after that point. -/
theorem copied_at (c : Dev nD) (t : Fin cfg0.N) (h1 : t.val % 512 = 511) :
    (outsAt0 m c t.val t.isLt).1 = total1 m c t.val t.isLt ∧ (outsAt0 m c t.val t.isLt).2.1 = total2 m c t.val t.isLt := by
  have hN : t.val < 512 := lt_of_lt_of_eq t.isLt (show cfg0.N = 512 from N_0)
  have h0 : ¬t.val % 512 = 0 := by omega
  have e := outsAt0_C m c t h0 h1
  have tt := totals_eq m c t.val t.isLt
  refine ⟨?_, ?_⟩
  · refine ((congrArg (fun p => p.1) e).trans (Pieces.copied1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).trans ?_
    exact ((Pieces.total1_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans (congrArg (fun p => p.2.2.2.2.1) e).symm).trans tt.1
  · refine ((congrArg (fun p => p.2.1) e).trans (Pieces.copied2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)).trans ?_
    exact ((Pieces.total2_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm.trans (congrArg (fun p => p.2.2.2.2.2) e).symm).trans tt.2

end Cert.KernelIdeal.Chain

end
-- ==== Proof.Blocks.lean ====
/-
  The windows' blocks as parts of the arrays.

  Point t of the 512-point grid works on rows 2048·t … 2048·t + 2047: the two input windows and the two spike output
  windows have block index (t, 0) with blocks of 2048 rows, so row r of the block is row 2048·t + r of the array
  (`rowAt`); the three weight windows and the two weight-update output windows have block index (0, 0) with the
  whole array as their one block. The index maps are decided once over the grid; each block read is then the array
  at the block's position.
-/
import proofs.«138860_j46213848105973_2_alg».proof.Proof.Gen.KernelIdeal.Frame
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The printed index maps, decided over the grid: the row-tiled windows are at block (t, 0), the others at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The grid has 512 points. -/
theorem lt_512 (t : Fin cfg0.N) : t.val < 512 := lt_of_lt_of_eq t.isLt (show cfg0.N = 512 from N_0)

/-- The array row that row `r` of point `t`'s block is: 2048·t + r. -/
def rowAt (t : Fin cfg0.N) (r : Fin 2048) : Fin 1048576 :=
  ⟨2048 * t.val + r.val, by have h := lt_512 t; have := r.isLt; omega⟩

/-- Row r of point t's block of the first-layer inputs is row 2048·t + r of the array. -/
theorem x1_rows (c : Dev nD) (t : Fin cfg0.N) (r : Fin 2048) (k : Fin 12) :
    iblk m c 0 t (ix2 r k) = m ((c : Thread nD τ).loc main_arg0) (ix2 (rowAt t r) k) := by
  obtain ⟨e0, e1, -⟩ := idx_facts t
  show V m c main_arg0 (((cfg0.win 0).blk t).view.emb (ix2 r k)) = _
  refine congrArg (m ((c : Thread nD τ).loc main_arg0)) ?_
  funext a; apply Fin.ext
  match a with
  | ⟨0, _⟩ => show win0_0.index t (0 : Fin 2) * 2048 + 1 * r.val = 2048 * t.val + r.val; omega
  | ⟨1, _⟩ => show win0_0.index t (1 : Fin 2) * 12 + 1 * k.val = k.val; omega

/-- Row r of point t's block of the direct inputs is row 2048·t + r of the array. -/
theorem x2_rows (c : Dev nD) (t : Fin cfg0.N) (r : Fin 2048) (k : Fin 24) :
    iblk m c 1 t (ix2 r k) = m ((c : Thread nD τ).loc main_arg1) (ix2 (rowAt t r) k) := by
  obtain ⟨-, -, e0, e1, -⟩ := idx_facts t
  show V m c main_arg1 (((cfg0.win 1).blk t).view.emb (ix2 r k)) = _
  refine congrArg (m ((c : Thread nD τ).loc main_arg1)) ?_
  funext a; apply Fin.ext
  match a with
  | ⟨0, _⟩ => show win0_1.index t (0 : Fin 2) * 2048 + 1 * r.val = 2048 * t.val + r.val; omega
  | ⟨1, _⟩ => show win0_1.index t (1 : Fin 2) * 24 + 1 * k.val = k.val; omega

/-- The first weight window's one block is the whole 12×12 array. -/
theorem w0_block (c : Dev nD) (t : Fin cfg0.N) (q : S12x12.Idx) :
    iblk m c 2 t q = m ((c : Thread nD τ).loc main_arg2) q := by
  obtain ⟨-, -, -, -, e20, e21, e30, e31, e40, e41, -⟩ := idx_facts t
  show V m c main_arg2 (((cfg0.win 2).blk t).view.emb q) = _
  refine congrArg (m ((c : Thread nD τ).loc main_arg2)) ?_
  funext a; apply Fin.ext
  match a with
  | ⟨0, _⟩ => show win0_2.index t (0 : Fin 2) * 12 + 1 * (q 0).val = (q 0).val; omega
  | ⟨1, _⟩ => show win0_2.index t (1 : Fin 2) * 12 + 1 * (q 1).val = (q 1).val; omega

/-- The second weight window's one block is the whole 12×24 array. -/
theorem w1_block (c : Dev nD) (t : Fin cfg0.N) (q : S12x24.Idx) :
    iblk m c 3 t q = m ((c : Thread nD τ).loc main_arg3) q := by
  obtain ⟨-, -, -, -, e20, e21, e30, e31, e40, e41, -⟩ := idx_facts t
  show V m c main_arg3 (((cfg0.win 3).blk t).view.emb q) = _
  refine congrArg (m ((c : Thread nD τ).loc main_arg3)) ?_
  funext a; apply Fin.ext
  match a with
  | ⟨0, _⟩ => show win0_3.index t (0 : Fin 2) * 12 + 1 * (q 0).val = (q 0).val; omega
  | ⟨1, _⟩ => show win0_3.index t (1 : Fin 2) * 24 + 1 * (q 1).val = (q 1).val; omega

/-- The third weight window's one block is the whole 24×24 array. -/
theorem w2_block (c : Dev nD) (t : Fin cfg0.N) (q : S24x24.Idx) :
    iblk m c 4 t q = m ((c : Thread nD τ).loc main_arg4) q := by
  obtain ⟨-, -, -, -, e20, e21, e30, e31, e40, e41, -⟩ := idx_facts t
  show V m c main_arg4 (((cfg0.win 4).blk t).view.emb q) = _
  refine congrArg (m ((c : Thread nD τ).loc main_arg4)) ?_
  funext a; apply Fin.ext
  match a with
  | ⟨0, _⟩ => show win0_4.index t (0 : Fin 2) * 24 + 1 * (q 0).val = (q 0).val; omega
  | ⟨1, _⟩ => show win0_4.index t (1 : Fin 2) * 24 + 1 * (q 1).val = (q 1).val; omega

/-- Entry (r, i) of point t's block of the first spike output is entry (2048·t + r, i) of its array. -/
theorem s0_emb (t : Fin cfg0.N) (r : Fin 2048) (i : Fin 12) :
    ((cfg0.win 7).blk t).view.emb (ix2 r i) = ix2 (rowAt t r) i := by
  obtain ⟨-, -, -, -, -, -, -, -, -, -, -, -, -, -, e0, e1, -⟩ := idx_facts t
  funext a; apply Fin.ext
  match a with
  | ⟨0, _⟩ => show win0_7.index t (0 : Fin 2) * 2048 + 1 * r.val = 2048 * t.val + r.val; omega
  | ⟨1, _⟩ => show win0_7.index t (1 : Fin 2) * 12 + 1 * i.val = i.val; omega

/-- Entry (r, j) of point t's block of the second spike output is entry (2048·t + r, j) of its array. -/
theorem s1_emb (t : Fin cfg0.N) (r : Fin 2048) (j : Fin 24) :
    ((cfg0.win 8).blk t).view.emb (ix2 r j) = ix2 (rowAt t r) j := by
  obtain ⟨-, -, -, -, -, -, -, -, -, -, -, -, -, -, -, -, e0, e1⟩ := idx_facts t
  funext a; apply Fin.ext
  match a with
  | ⟨0, _⟩ => show win0_8.index t (0 : Fin 2) * 2048 + 1 * r.val = 2048 * t.val + r.val; omega
  | ⟨1, _⟩ => show win0_8.index t (1 : Fin 2) * 24 + 1 * j.val = j.val; omega

/-- The first weight-update output's one block is its whole array. -/
theorem dw1_emb (t : Fin cfg0.N) (q : S12x24.Idx) : ((cfg0.win 5).blk t).view.emb q = q := by
  obtain ⟨-, -, -, -, -, -, -, -, -, -, e0, e1, -⟩ := idx_facts t
  funext a; apply Fin.ext
  match a with
  | ⟨0, _⟩ => show win0_5.index t (0 : Fin 2) * 12 + 1 * (q 0).val = (q 0).val; omega
  | ⟨1, _⟩ => show win0_5.index t (1 : Fin 2) * 24 + 1 * (q 1).val = (q 1).val; omega

/-- The second weight-update output's one block is its whole array. -/
theorem dw2_emb (t : Fin cfg0.N) (q : S24x24.Idx) : ((cfg0.win 6).blk t).view.emb q = q := by
  obtain ⟨-, -, -, -, -, -, -, -, -, -, -, -, e0, e1, -⟩ := idx_facts t
  funext a; apply Fin.ext
  match a with
  | ⟨0, _⟩ => show win0_6.index t (0 : Fin 2) * 24 + 1 * (q 0).val = (q 0).val; omega
  | ⟨1, _⟩ => show win0_6.index t (1 : Fin 2) * 24 + 1 * (q 1).val = (q 1).val; omega

end Cert.KernelIdeal.Blocks

end
-- ==== Proof.Layer.lean ====
/-
  One step of a two-layer integrate-and-fire network with its weight-update sums, as plain functions on the
  extended reals.

  A row of first-layer inputs `u : Fin 12 → EReal` is sent through the weights `W0` (12×12); a neuron fires when its
  current exceeds the threshold 1/2, and the spike is the number 1 or 0:

      s0 i = [ Σ_k u k · W0 (k, i) > 1/2 ].

  The second layer sums the first layer's spikes through `W1` (12×24) and a row of direct inputs `v : Fin 24 → EReal`
  through `W2` (24×24):

      s1 j = [ (Σ_k s0 k · W1 (k, j)) + (Σ_k v k · W2 (k, j)) > 1/2 ].

  Over `n` rows (trials) the two weight updates are the sums, over the rows b, of the outer products

      dw1 (i, j) = Σ_b s0_b i · s1_b j,        dw2 (i, j) = Σ_b v_b i · s1_b j.

  Everything is stated row by row: the spikes of a row depend on that row alone, so a block of rows of the arrays
  gives the same spikes as the whole arrays at the block's position. The sums over the rows are sums in a
  commutative monoid (the extended reals under addition), so they may be taken block by block, in any order, with
  nothing assumed finite.
-/
import Idealize.ShloMosaic.PureOps.Ideal
import Idealize.ShloMosaic.Lib.ValueIdx

noncomputable section

namespace Cert.Layer

open Idealize.ShloMosaic Idealize.ShloMosaic.ValueIdx

/-- The firing threshold 1/2, as the f32 word both programs print. -/
abbrev half : EReal := Ideal.ofBits .f32 0x3F000000#32

/-- The spike of a current: 1 if it exceeds the threshold, else 0 (the comparison's bit read as a number). -/
def spike (x : EReal) : EReal := (((Ideal.cmp .ogt x half).toNat : ℝ) : EReal)

/-- A comparison bit widened to 32 bits and read as a signed integer is the bit read as a natural number. -/
theorem toInt_setWidth_bit : ∀ b : BitVec 1, (b.setWidth 32).toInt = (b.toNat : ℤ) := by decide

/-- So the spike is also the widened bit read signed. -/
theorem spike_eq_signed (x : EReal) :
    ((((Ideal.cmp .ogt x half).setWidth 32).toInt : ℝ) : EReal) = spike x := by
  unfold spike
  rw [toInt_setWidth_bit]
  norm_cast

/-- Row `b` of an array of `n` rows and `d` columns. -/
abbrev row {n d : Nat} (x : (⟨2, ![n, d]⟩ : Shape).Idx → EReal) (b : Fin n) : Fin d → EReal := fun k => x (ix2 b k)

variable (W0 : (⟨2, ![12, 12]⟩ : Shape).Idx → EReal) (W1 : (⟨2, ![12, 24]⟩ : Shape).Idx → EReal)
  (W2 : (⟨2, ![24, 24]⟩ : Shape).Idx → EReal)

/-- First-layer spikes of one row of inputs. -/
def s0 (u : Fin 12 → EReal) (i : Fin 12) : EReal := spike (∑ k : Fin 12, u k * W0 (ix2 k i))

/-- Second-layer spikes of one row: the first layer's spikes through `W1` plus the direct inputs through `W2`. -/
def s1 (u : Fin 12 → EReal) (v : Fin 24 → EReal) (j : Fin 24) : EReal :=
  spike ((∑ k : Fin 12, s0 W0 u k * W1 (ix2 k j)) + ∑ k : Fin 24, v k * W2 (ix2 k j))

/-- The first weight update over `n` rows: the sum of the outer products of the two layers' spikes. -/
def dw1 {n : Nat} (x1 : (⟨2, ![n, 12]⟩ : Shape).Idx → EReal) (x2 : (⟨2, ![n, 24]⟩ : Shape).Idx → EReal)
    (i : Fin 12) (j : Fin 24) : EReal :=
  ∑ b : Fin n, s0 W0 (row x1 b) i * s1 W0 W1 W2 (row x1 b) (row x2 b) j

/-- The second weight update over `n` rows: the sum of the outer products of the direct inputs and the second
    layer's spikes. -/
def dw2 {n : Nat} (x1 : (⟨2, ![n, 12]⟩ : Shape).Idx → EReal) (x2 : (⟨2, ![n, 24]⟩ : Shape).Idx → EReal)
    (i : Fin 24) (j : Fin 24) : EReal :=
  ∑ b : Fin n, x2 (ix2 b i) * s1 W0 W1 W2 (row x1 b) (row x2 b) j

end Cert.Layer

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibGramDot.lean ====
/-
  Two matrices contracted over their common FIRST axis, read at an entry, on the extended reals.

  For the dimension numbers "contraction x rows times contraction x columns" (`GramDot.dims K A B`: a left operand
  [K, A] and a right operand [K, B], both contracted on their first axis, no batch axis; the product of the left
  operand's transpose with the right operand, einsum 'ka,kb->ab'), both a `tpu.matmul` into the zero accumulator
  and the host's `dot_general` are, at an output entry (a, b), the plain sum

      sum over k < K of  l (k, a) * r (k, b)

  of products of extended reals: no rounding, no chunking and no accumulator are left. Nothing is assumed finite:
  the statement is about one and the same finite sum of products, only re-indexed from the contraction's own index
  type to `Fin K`. Generic in the three extents, so one statement serves a block of K rows and the whole array.
  A printed record with dimension numbers [0], [0], [1], [1] and no batch axis equals `GramDot.dims K A B` by `rfl`.
-/
import Idealize.ShloMosaic.PureOps.Ideal.Laws
import Idealize.ShloMosaic.Lib.ValueIdx

noncomputable section

namespace GramDot

open Idealize.ShloMosaic Idealize.ShloMosaic.ValueIdx

/-- `<[0], [0], [1], [1], …, [], []>`: `K×A` by `K×B`, both contracted on the first axis; the result is `A×B`. -/
def dims (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap 0 1 [], by simpa [List.finRange] using List.Perm.swap 0 1 [],
    rfl, Nat.two_pos, fun b => by fin_cases b <;> rfl⟩

variable (K A B : Nat)

/-- The left operand's index at output entry `j` and contraction position `k` is (`k`, row of `j`). -/
theorem lhsIdx_eq (j : (⟨2, ![A, B]⟩ : Shape).Idx) (k : Fin K) :
    (dims K A B).lhsIdx j ((contrEquiv1 (dims K A B) K rfl rfl).symm k) = ix2 k (j 0) := by
  have hk := contrEquiv1_symm_val (dims K A B) K rfl rfl k
  funext a
  apply Fin.ext
  match a with
  | ⟨0, _⟩ =>
    exact ((dims K A B).lhsIdx_val_of_single rfl j _).trans hk
  | ⟨1, _⟩ =>
    show ((dims K A B).lhsIdx j _ 1).val = (j 0).val
    unfold DotDims.lhsIdx
    rw [dif_neg (show ¬(1 : Fin 2) ∈ (dims K A B).lhsBatch from List.not_mem_nil),
      dif_pos (show (1 : Fin 2) ∈ (dims K A B).lhsNonContracting from List.mem_singleton.mpr rfl)]
    rfl

/-- The right operand's index at output entry `j` and contraction position `k` is (`k`, column of `j`). -/
theorem rhsIdx_eq (j : (⟨2, ![A, B]⟩ : Shape).Idx) (k : Fin K) :
    (dims K A B).rhsIdx j ((contrEquiv1 (dims K A B) K rfl rfl).symm k) = ix2 k (j 1) := by
  have hk := contrEquiv1_symm_val (dims K A B) K rfl rfl k
  funext a
  apply Fin.ext
  match a with
  | ⟨0, _⟩ =>
    exact ((dims K A B).rhsIdx_val_of_single rfl j _).trans hk
  | ⟨1, _⟩ =>
    show ((dims K A B).rhsIdx j _ 1).val = (j 1).val
    unfold DotDims.rhsIdx
    rw [dif_neg (show ¬(1 : Fin 2) ∈ (dims K A B).rhsBatch from List.not_mem_nil),
      dif_pos (show (1 : Fin 2) ∈ (dims K A B).rhsNonContracting from List.mem_singleton.mpr rfl)]
    rfl

/-- The contraction's sum, over its own index type, is the sum over `k < K` of `l (k, row) * r (k, column)`. -/
theorem sum_eq (l : (⟨2, ![K, A]⟩ : Shape).Idx → EReal) (r : (⟨2, ![K, B]⟩ : Shape).Idx → EReal)
    (j : (⟨2, ![A, B]⟩ : Shape).Idx) :
    ∑ q : (dims K A B).contr.Idx, l ((dims K A B).lhsIdx j q) * r ((dims K A B).rhsIdx j q)
      = ∑ k : Fin K, l (ix2 k (j 0)) * r (ix2 k (j 1)) := by
  rw [← Equiv.sum_comp (contrEquiv1 (dims K A B) K rfl rfl).symm]
  refine Finset.sum_congr rfl fun k _ => ?_
  rw [lhsIdx_eq, rhsIdx_eq]
  rfl

/-- A `tpu.matmul` into the zero accumulator, at an entry: the plain sum of products over the common first axis. -/
theorem matmul_zero_apply {φ₁ φ₂ : FTy} (prec : Option ContractPrecision)
    (l : FVec Ideal ⟨2, ![K, A]⟩ φ₁) (r : FVec Ideal ⟨2, ![K, B]⟩ φ₂) (j : (⟨2, ![A, B]⟩ : Shape).Idx) :
    FloatOps.matmul (dims K A B) prec l r (constant ⟨2, ![A, B]⟩ .f32 0x00000000#32) j
      = ∑ k : Fin K, (l (ix2 k (j 0)) : EReal) * r (ix2 k (j 1)) :=
  (Ideal.matmul_constant_zero_apply (dims K A B) prec l r j).trans (sum_eq K A B l r j)

/-- The host's `dot_general`, at an entry: the same plain sum of products, whatever the schedule key. -/
theorem dotGeneral_apply {φ₁ φ₂ : FTy} (prec : Option ContractPrecision) (sched : HostSchedule)
    (l : FVec Ideal ⟨2, ![K, A]⟩ φ₁) (r : FVec Ideal ⟨2, ![K, B]⟩ φ₂) (j : (⟨2, ![A, B]⟩ : Shape).Idx) :
    FloatOps.dotGeneral (dims K A B) prec sched l r j
      = ∑ k : Fin K, (l (ix2 k (j 0)) : EReal) * r (ix2 k (j 1)) :=
  (Ideal.dotGeneral_apply (dims K A B) prec sched l r j).trans (sum_eq K A B l r j)

end GramDot

end
-- ==== Proof.Payload.lean ====
/-
  The body's stored values read at an entry, on the extended reals.

  For a block of 2048 rows `x` (first-layer inputs) and `y` (direct inputs) and the three weight matrices:
  • the first spike block at (r, i) is the first-layer spike i of row r;
  • the second spike block at (r, j) is the second-layer spike j of row r;
  • the first accumulator's new value at (i, j) is its old value there plus Σ_r s0_r i · s1_r j over the block's rows;
  • the second accumulator's new value at (i, j) is its old value plus Σ_r y (r, i) · w (r, j) of the spike block w it is given;
  • the two reset values are zero everywhere.
  A matrix product into the zero accumulator is the plain sum of products; the comparison's bit, widened and read
  signed, is the spike. No entry is assumed finite.
-/
import proofs.«138860_j46213848105973_2_alg».proof.Proof.Gen.KernelIdeal.Skeleton
import proofs.«138860_j46213848105973_2_alg».proof.Proof.Layer
import proofs.«138860_j46213848105973_2_alg».proof.Proof.LibPlainDot
import proofs.«138860_j46213848105973_2_alg».proof.Proof.LibGramDot
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Layer

variable (x : Vec Ideal S2048x12 .f32) (y : Vec Ideal S2048x24 .f32)
  (w0 : Vec Ideal S12x12 .f32) (w1 : Vec Ideal S12x24 .f32) (w2 : Vec Ideal S24x24 .f32)

/-- The first spike block at (r, i): the first-layer spike i of the block's row r. -/
theorem spikes0_apply (r : Fin 2048) (i : Fin 12) :
    k0_pay4 (F := Ideal) x w0 (ix2 r i) = s0 w0 (row x r) i := by
  unfold k0_pay4
  show FloatOps.sitofp .f32 ((FloatOps.cmpf .ogt
      (FloatOps.matmul (F := Ideal) (φ₁ := .f32) (φ₂ := .f32) dot_S2048x12_S12x12_S2048x12_1_0_0_1_n_n (some .fp32) x w0
        (constant S2048x12 .f32 0x00000000#32) (ix2 r i))
      (Scalar.ofBits .f32 0x3F000000#32)).setWidth 32) = _
  rw [Ideal.cmpf_def]
  refine (spike_eq_signed _).trans ?_
  exact congrArg spike (PlainDot.matmul_zero_apply 2048 12 12 (φ₁ := .f32) (φ₂ := .f32) (some .fp32) x w0 (ix2 r i))

/-- The second spike block at (r, j): the second-layer spike j of the block's row r. -/
theorem spikes1_apply (r : Fin 2048) (j : Fin 24) :
    k0_pay5 (F := Ideal) x y w0 w1 w2 (ix2 r j) = s1 w0 w1 w2 (row x r) (row y r) j := by
  unfold k0_pay5
  show FloatOps.sitofp .f32 ((FloatOps.cmpf .ogt
      (FloatOps.matmul (F := Ideal) (φ₁ := .f32) (φ₂ := .f32) dot_S2048x12_S12x24_S2048x24_1_0_0_1_n_n (some .fp32) (k0_pay4 (F := Ideal) x w0) w1
          (constant S2048x24 .f32 0x00000000#32) (ix2 r j)
        + FloatOps.matmul (F := Ideal) (φ₁ := .f32) (φ₂ := .f32) dot_S2048x24_S24x24_S2048x24_1_0_0_1_n_n (some .fp32) y w2
          (constant S2048x24 .f32 0x00000000#32) (ix2 r j))
      (Scalar.ofBits .f32 0x3F000000#32)).setWidth 32) = _
  rw [Ideal.cmpf_def]
  refine (spike_eq_signed _).trans ?_
  refine congrArg spike ?_
  refine congrArg₂ (· + ·) ?_ ?_
  · refine (PlainDot.matmul_zero_apply 2048 12 24 (φ₁ := .f32) (φ₂ := .f32) (some .fp32) (k0_pay4 (F := Ideal) x w0) w1 (ix2 r j)).trans ?_
    exact Finset.sum_congr rfl fun k _ => congrArg (· * w1 (ix2 k j)) (spikes0_apply x w0 r k)
  · exact PlainDot.matmul_zero_apply 2048 24 24 (φ₁ := .f32) (φ₂ := .f32) (some .fp32) y w2 (ix2 r j)

/-- The first accumulator after a block, at (i, j): what it held there plus the block's sum of products of spikes. -/
theorem total1_apply (a : Vec Ideal S12x24 .f32) (i : Fin 12) (j : Fin 24) :
    k0_pay6 (F := Ideal) x y w0 w1 w2 a (ix2 i j)
      = a (ix2 i j) + ∑ r : Fin 2048, s0 w0 (row x r) i * s1 w0 w1 w2 (row x r) (row y r) j := by
  have h : k0_pay6 (F := Ideal) x y w0 w1 w2 a
      = shapeCast S12x24 (fun q => a q + FloatOps.matmul (GramDot.dims 2048 12 24) (some .fp32)
          (k0_pay4 (F := Ideal) x w0) (k0_pay5 (F := Ideal) x y w0 w1 w2)
          (constant ⟨2, ![12, 24]⟩ .f32 0x00000000#32) q) shapeCasts_S12x24_S12x24 := rfl
  rw [h, shapeCast_self]
  refine congrArg (a (ix2 i j) + ·) ?_
  refine (GramDot.matmul_zero_apply 2048 12 24 (some .fp32) (k0_pay4 (F := Ideal) x w0)
    (k0_pay5 (F := Ideal) x y w0 w1 w2) (ix2 i j)).trans ?_
  exact Finset.sum_congr rfl fun r _ => congrArg₂ (· * ·) (spikes0_apply x w0 r i) (spikes1_apply x y w0 w1 w2 r j)

/-- The second accumulator after a block, at (i, j): what it held there plus the block's sum of products of the
    direct inputs and the spike block it is given. -/
theorem total2_apply (w : Vec Ideal S2048x24 .f32) (a : Vec Ideal S24x24 .f32) (i j : Fin 24) :
    k0_pay1 (F := Ideal) y w a (ix2 i j) = a (ix2 i j) + ∑ r : Fin 2048, y (ix2 r i) * w (ix2 r j) := by
  have h : k0_pay1 (F := Ideal) y w a
      = shapeCast S24x24 (fun q => a q + FloatOps.matmul (F := Ideal) (φ₁ := .f32) (φ₂ := .f32) (GramDot.dims 2048 24 24) (some .fp32) y w
          (constant ⟨2, ![24, 24]⟩ .f32 0x00000000#32) q) shapeCasts_S24x24_S24x24 := rfl
  rw [h, shapeCast_self]
  exact congrArg (a (ix2 i j) + ·) (GramDot.matmul_zero_apply 2048 24 24 (φ₁ := .f32) (φ₂ := .f32) (some .fp32) y w (ix2 i j))

/-- The first accumulator's reset value is zero everywhere. -/
theorem reset1_apply (q : S12x24.Idx) : k0_pay2 (F := Ideal) q = 0 := by
  have h : k0_pay2 (F := Ideal)
      = shapeCast S12x24 (fun _ => Ideal.ofBits .f32 0x00000000#32) shapeCasts_S12x24_S12x24 := rfl
  rw [h, shapeCast_self]
  exact Ideal.ofBits_zero_f32

/-- The second accumulator's reset value is zero everywhere. -/
theorem reset2_apply (q : S24x24.Idx) : k0_pay3 (F := Ideal) q = 0 := by
  have h : k0_pay3 (F := Ideal)
      = shapeCast S24x24 (fun _ => Ideal.ofBits .f32 0x00000000#32) shapeCasts_S24x24_S24x24 := rfl
  rw [h, shapeCast_self]
  exact Ideal.ofBits_zero_f32

end Cert.KernelIdeal.Pay

end
-- ==== Proof.Totals.lean ====
/-
  Sums over rows taken block by block, and running totals.

  • `sum_blocks`: a sum over m · n consecutive positions is the sum, over the m blocks, of the sum over each
    block's n positions; position n · t + r is the r-th of block t.
  • `running_total`: a total built up one term at a time from zero — A₀ = z + S₀ with z = 0, Aₖ₊₁ = Aₖ + Sₖ₊₁ —
    is after step n the sum S₀ + … + Sₙ.
  Only a commutative additive monoid is used, so both hold on the extended reals with nothing assumed finite.
-/
import Mathlib.Algebra.BigOperators.Fin
import Mathlib.Algebra.BigOperators.Intervals
import Mathlib.Logic.Equiv.Fin.Basic

namespace Cert.Totals

/-- Position `n · t + r` of `m · n` positions: the `r`-th of block `t`. -/
def pos {m n : ℕ} (t : Fin m) (r : Fin n) : Fin (m * n) :=
  ⟨n * t.val + r.val, by
    have h1 : t.val + 1 ≤ m := t.isLt
    have h2 := r.isLt
    have h3 : n * (t.val + 1) ≤ n * m := Nat.mul_le_mul_left n h1
    rw [Nat.mul_succ] at h3
    rw [Nat.mul_comm m n]
    omega⟩

/-- A sum over m · n positions is the double sum over (block, position in the block). -/
theorem sum_blocks {M : Type*} [AddCommMonoid M] (m n : ℕ) (f : Fin (m * n) → M) :
    ∑ l, f l = ∑ t : Fin m, ∑ r : Fin n, f (pos t r) := by
  rw [← Equiv.sum_comp finProdFinEquiv f, Fintype.sum_prod_type]
  refine Finset.sum_congr rfl fun t _ => Finset.sum_congr rfl fun r _ => congrArg f (Fin.ext ?_)
  show r.val + n * t.val = n * t.val + r.val
  omega

/-- If A₀ = z + S₀ with z = 0 and Aₖ₊₁ = Aₖ + Sₖ₊₁ for every k < N, then Aₙ = S₀ + … + Sₙ for every n ≤ N. -/
theorem running_total {M : Type*} [AddCommMonoid M] (A S : ℕ → M) (z : M) (hz : z = 0) (N : ℕ)
    (h0 : A 0 = z + S 0) (hs : ∀ k, k < N → A (k + 1) = A k + S (k + 1)) :
    ∀ n, n ≤ N → A n = ∑ k ∈ Finset.range (n + 1), S k := by
  intro n
  induction n with
  | zero => intro _; rw [h0, hz, zero_add, Finset.sum_range_one]
  | succ n ih =>
    intro hn
    rw [hs n (by omega), ih (by omega), ← Finset.sum_range_succ]

end Cert.Totals
-- ==== Proof.Arrays.lean ====
/-
  The four results as functions of the five argument arrays, and the weight updates summed block by block.

  For arrays of n rows: the first spike array at (b, i) is the first-layer spike i of row b, the second spike array
  at (b, j) the second-layer spike j of row b, and the two weight updates at (i, j) the sums over all rows of the
  outer products. For n = 1048576 = 512 · 2048 the sums over the rows are the sums, over 512 blocks, of the sums over
  each block's 2048 rows — a regrouping of one finite sum in a commutative monoid.
-/
import proofs.«138860_j46213848105973_2_alg».proof.Proof.Layer
import proofs.«138860_j46213848105973_2_alg».proof.Proof.Totals

noncomputable section

namespace Cert.Layer

open Idealize.ShloMosaic Idealize.ShloMosaic.ValueIdx

variable (W0 : (⟨2, ![12, 12]⟩ : Shape).Idx → EReal) (W1 : (⟨2, ![12, 24]⟩ : Shape).Idx → EReal)
  (W2 : (⟨2, ![24, 24]⟩ : Shape).Idx → EReal)

/-- The first spike array: entry (b, i) is the first-layer spike i of row b. -/
def spikes0 {n : Nat} (x1 : (⟨2, ![n, 12]⟩ : Shape).Idx → EReal) : (⟨2, ![n, 12]⟩ : Shape).Idx → EReal :=
  fun q => s0 W0 (row x1 (q 0)) (q 1)

/-- The second spike array: entry (b, j) is the second-layer spike j of row b. -/
def spikes1 {n : Nat} (x1 : (⟨2, ![n, 12]⟩ : Shape).Idx → EReal) (x2 : (⟨2, ![n, 24]⟩ : Shape).Idx → EReal) :
    (⟨2, ![n, 24]⟩ : Shape).Idx → EReal :=
  fun q => s1 W0 W1 W2 (row x1 (q 0)) (row x2 (q 0)) (q 1)

/-- The first weight update as an array. -/
def update1 {n : Nat} (x1 : (⟨2, ![n, 12]⟩ : Shape).Idx → EReal) (x2 : (⟨2, ![n, 24]⟩ : Shape).Idx → EReal) :
    (⟨2, ![12, 24]⟩ : Shape).Idx → EReal :=
  fun q => dw1 W0 W1 W2 x1 x2 (q 0) (q 1)

/-- The second weight update as an array. -/
def update2 {n : Nat} (x1 : (⟨2, ![n, 12]⟩ : Shape).Idx → EReal) (x2 : (⟨2, ![n, 24]⟩ : Shape).Idx → EReal) :
    (⟨2, ![24, 24]⟩ : Shape).Idx → EReal :=
  fun q => dw2 W0 W1 W2 x1 x2 (q 0) (q 1)

/-- Row 2048·t + r of 1048576 rows, as the r-th row of block t. -/
abbrev blockRow (t : Fin 512) (r : Fin 2048) : Fin 1048576 := Cert.Totals.pos (m := 512) (n := 2048) t r

/-- The first weight update over 1048576 rows, block by block. -/
theorem dw1_blocks (x1 : (⟨2, ![1048576, 12]⟩ : Shape).Idx → EReal) (x2 : (⟨2, ![1048576, 24]⟩ : Shape).Idx → EReal)
    (i : Fin 12) (j : Fin 24) :
    dw1 W0 W1 W2 x1 x2 i j = ∑ t : Fin 512, ∑ r : Fin 2048,
      s0 W0 (row x1 (blockRow t r)) i * s1 W0 W1 W2 (row x1 (blockRow t r)) (row x2 (blockRow t r)) j :=
  Cert.Totals.sum_blocks 512 2048 (fun b : Fin (512 * 2048) =>
    s0 W0 (row x1 b) i * s1 W0 W1 W2 (row x1 b) (row x2 b) j)

/-- The second weight update over 1048576 rows, block by block. -/
theorem dw2_blocks (x1 : (⟨2, ![1048576, 12]⟩ : Shape).Idx → EReal) (x2 : (⟨2, ![1048576, 24]⟩ : Shape).Idx → EReal)
    (i j : Fin 24) :
    dw2 W0 W1 W2 x1 x2 i j = ∑ t : Fin 512, ∑ r : Fin 2048,
      x2 (ix2 (blockRow t r) i) * s1 W0 W1 W2 (row x1 (blockRow t r)) (row x2 (blockRow t r)) j :=
  Cert.Totals.sum_blocks 512 2048 (fun b : Fin (512 * 2048) =>
    x2 (ix2 b i) * s1 W0 W1 W2 (row x1 b) (row x2 b) j)

end Cert.Layer

end
-- ==== Proof.BlockSums.lean ====
/-
  Block sums and running totals, on the extended reals.

  Point t of the grid sees rows 2048·t … 2048·t + 2047 of the two input arrays and the whole weight arrays, so the
  spikes it computes are the spikes of those array rows, and what it adds to each accumulator is the sum of outer
  products over those 2048 rows. After point n an accumulator holds the sum of blocks 0 … n's sums (by induction on
  n, from the zero reset); all 512 blocks' sums together are the sum over all 1048576 rows. Sums are regrouped in a
  commutative monoid only; no entry is assumed finite.
-/
import proofs.«138860_j46213848105973_2_alg».proof.Proof.Chain
import proofs.«138860_j46213848105973_2_alg».proof.Proof.Blocks
import proofs.«138860_j46213848105973_2_alg».proof.Proof.Payload
import proofs.«138860_j46213848105973_2_alg».proof.Proof.Arrays
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Layer Cert.KernelIdeal.Blocks

variable (m : (ℓ : Loc nD τ sig) → Buf (Elt Ideal) ℓ) (ρ : Dev nD → PrngReg)

/-- The five argument arrays on core `c`, as launched. -/
abbrev X1 (c : Dev nD) : (⟨2, ![1048576, 12]⟩ : Shape).Idx → EReal := m ((c : Thread nD τ).loc main_arg0)
abbrev X2 (c : Dev nD) : (⟨2, ![1048576, 24]⟩ : Shape).Idx → EReal := m ((c : Thread nD τ).loc main_arg1)
abbrev A0 (c : Dev nD) : (⟨2, ![12, 12]⟩ : Shape).Idx → EReal := m ((c : Thread nD τ).loc main_arg2)
abbrev A1 (c : Dev nD) : (⟨2, ![12, 24]⟩ : Shape).Idx → EReal := m ((c : Thread nD τ).loc main_arg3)
abbrev A2 (c : Dev nD) : (⟨2, ![24, 24]⟩ : Shape).Idx → EReal := m ((c : Thread nD τ).loc main_arg4)

/-! ## A point's blocks -/

theorem w0_eq (c : Dev nD) (t : Fin cfg0.N) : (iblk m c 2 t : Vec Ideal S12x12 .f32) = A0 m c := funext (w0_block m c t)
theorem w1_eq (c : Dev nD) (t : Fin cfg0.N) : (iblk m c 3 t : Vec Ideal S12x24 .f32) = A1 m c := funext (w1_block m c t)
theorem w2_eq (c : Dev nD) (t : Fin cfg0.N) : (iblk m c 4 t : Vec Ideal S24x24 .f32) = A2 m c := funext (w2_block m c t)

/-- Row r of point t's block of first-layer inputs is row 2048·t + r of the array. -/
theorem x1_row (c : Dev nD) (t : Fin cfg0.N) (r : Fin 2048) :
    row (n := 2048) (d := 12) (iblk m c 0 t) r = row (X1 m c) (rowAt t r) := funext fun k => x1_rows m c t r k

/-- Row r of point t's block of direct inputs is row 2048·t + r of the array. -/
theorem x2_row (c : Dev nD) (t : Fin cfg0.N) (r : Fin 2048) :
    row (n := 2048) (d := 24) (iblk m c 1 t) r = row (X2 m c) (rowAt t r) := funext fun k => x2_rows m c t r k

/-- The first-layer spikes point t computes, at (r, i): those of array row 2048·t + r. -/
theorem blk_s0 (c : Dev nD) (t : Fin cfg0.N) (r : Fin 2048) (i : Fin 12) :
    k0_pay4 (F := Ideal) (iblk m c 0 t) (iblk m c 2 t) (ix2 r i) = s0 (A0 m c) (row (X1 m c) (rowAt t r)) i := by
  refine (Pay.spikes0_apply (iblk m c 0 t) (iblk m c 2 t) r i).trans ?_
  rw [w0_eq, x1_row]

/-- The second-layer spikes point t computes, at (r, j): those of array row 2048·t + r. -/
theorem blk_s1 (c : Dev nD) (t : Fin cfg0.N) (r : Fin 2048) (j : Fin 24) :
    Chain.spikes1 m c t (ix2 r j) = s1 (A0 m c) (A1 m c) (A2 m c) (row (X1 m c) (rowAt t r)) (row (X2 m c) (rowAt t r)) j := by
  refine (Pay.spikes1_apply (iblk m c 0 t) (iblk m c 1 t) (iblk m c 2 t) (iblk m c 3 t) (iblk m c 4 t) r j).trans ?_
  rw [w0_eq, w1_eq, w2_eq, x1_row, x2_row]

/-- Block t's sum of outer products of the two layers' spikes, at (i, j). -/
def part1 (c : Dev nD) (t : Fin cfg0.N) (i : Fin 12) (j : Fin 24) : EReal :=
  ∑ r : Fin 2048, s0 (A0 m c) (row (X1 m c) (rowAt t r)) i
    * s1 (A0 m c) (A1 m c) (A2 m c) (row (X1 m c) (rowAt t r)) (row (X2 m c) (rowAt t r)) j

/-- Block t's sum of outer products of the direct inputs and the second layer's spikes, at (i, j). -/
def part2 (c : Dev nD) (t : Fin cfg0.N) (i j : Fin 24) : EReal :=
  ∑ r : Fin 2048, X2 m c (ix2 (rowAt t r) i)
    * s1 (A0 m c) (A1 m c) (A2 m c) (row (X1 m c) (rowAt t r)) (row (X2 m c) (rowAt t r)) j

/-- One point adds its block's sum to the first accumulator. -/
theorem step1 (c : Dev nD) (t : Fin cfg0.N) (a : Vec Ideal S12x24 .f32) (i : Fin 12) (j : Fin 24) :
    k0_pay6 (F := Ideal) (iblk m c 0 t) (iblk m c 1 t) (iblk m c 2 t) (iblk m c 3 t) (iblk m c 4 t) a (ix2 i j)
      = a (ix2 i j) + part1 m c t i j := by
  refine (Pay.total1_apply (iblk m c 0 t) (iblk m c 1 t) (iblk m c 2 t) (iblk m c 3 t) (iblk m c 4 t) a i j).trans ?_
  unfold part1
  rw [w0_eq, w1_eq, w2_eq]
  refine congrArg (a (ix2 i j) + ·) (Finset.sum_congr rfl fun r _ => ?_)
  rw [x1_row, x2_row]

/-- One point adds its block's sum to the second accumulator. -/
theorem step2 (c : Dev nD) (t : Fin cfg0.N) (a : Vec Ideal S24x24 .f32) (i j : Fin 24) :
    k0_pay1 (F := Ideal) (iblk m c 1 t) (Chain.spikes1 m c t) a (ix2 i j) = a (ix2 i j) + part2 m c t i j := by
  refine (Pay.total2_apply (iblk m c 1 t) (Chain.spikes1 m c t) a i j).trans ?_
  unfold part2
  refine congrArg (a (ix2 i j) + ·) (Finset.sum_congr rfl fun r _ => ?_)
  rw [x2_rows m c t r i, blk_s1 m c t r j]

/-! ## The running totals -/

/-- After point n the first accumulator holds, at (i, j), the sum of blocks 0 … n's sums. -/
theorem total1_entry (c : Dev nD) (i : Fin 12) (j : Fin 24) : ∀ (n : ℕ) (h : n < cfg0.N),
    Chain.total1 m c n h (ix2 i j) = ∑ s : Fin (n + 1), part1 m c ⟨s.val, lt_of_lt_of_le s.isLt h⟩ i j
  | 0, h => by
    refine (step1 m c ⟨0, h⟩ (k0_pay2 (F := Ideal)) i j).trans ?_
    rw [Pay.reset1_apply, zero_add, Fin.sum_univ_one]
    rfl
  | n + 1, h => by
    refine (step1 m c ⟨n + 1, h⟩ (Chain.total1 m c n (Nat.lt_of_succ_lt h)) i j).trans ?_
    rw [total1_entry c i j n (Nat.lt_of_succ_lt h)]
    exact (Fin.sum_univ_castSucc (fun s : Fin (n + 1 + 1) => part1 m c ⟨s.val, lt_of_lt_of_le s.isLt h⟩ i j)).symm

/-- After point n the second accumulator holds, at (i, j), the sum of blocks 0 … n's sums. -/
theorem total2_entry (c : Dev nD) (i j : Fin 24) : ∀ (n : ℕ) (h : n < cfg0.N),
    Chain.total2 m c n h (ix2 i j) = ∑ s : Fin (n + 1), part2 m c ⟨s.val, lt_of_lt_of_le s.isLt h⟩ i j
  | 0, h => by
    refine (step2 m c ⟨0, h⟩ (k0_pay3 (F := Ideal)) i j).trans ?_
    rw [Pay.reset2_apply, zero_add, Fin.sum_univ_one]
    rfl
  | n + 1, h => by
    refine (step2 m c ⟨n + 1, h⟩ (Chain.total2 m c n (Nat.lt_of_succ_lt h)) i j).trans ?_
    rw [total2_entry c i j n (Nat.lt_of_succ_lt h)]
    exact (Fin.sum_univ_castSucc (fun s : Fin (n + 1 + 1) => part2 m c ⟨s.val, lt_of_lt_of_le s.isLt h⟩ i j)).symm

/-- Row r of block s, counted over the grid or as a position among 512 · 2048 rows: the same row. -/
theorem rowAt_eq (s : Fin 512) (h : s.val < cfg0.N) (r : Fin 2048) : rowAt ⟨s.val, h⟩ r = blockRow s r := Fin.ext rfl

/-- All 512 blocks' sums together are the first weight update over all rows. -/
theorem all_parts1 (c : Dev nD) (n : ℕ) (h : n < cfg0.N) (hn : n = 511) (i : Fin 12) (j : Fin 24) :
    (∑ s : Fin (n + 1), part1 m c ⟨s.val, lt_of_lt_of_le s.isLt h⟩ i j) = dw1 (A0 m c) (A1 m c) (A2 m c) (X1 m c) (X2 m c) i j := by
  subst hn
  rw [dw1_blocks]
  refine Finset.sum_congr rfl fun s _ => ?_
  unfold part1
  refine Finset.sum_congr rfl fun r _ => ?_
  rw [rowAt_eq]

/-- All 512 blocks' sums together are the second weight update over all rows. -/
theorem all_parts2 (c : Dev nD) (n : ℕ) (h : n < cfg0.N) (hn : n = 511) (i j : Fin 24) :
    (∑ s : Fin (n + 1), part2 m c ⟨s.val, lt_of_lt_of_le s.isLt h⟩ i j) = dw2 (A0 m c) (A1 m c) (A2 m c) (X1 m c) (X2 m c) i j := by
  subst hn
  rw [dw2_blocks]
  refine Finset.sum_congr rfl fun s _ => ?_
  unfold part2
  refine Finset.sum_congr rfl fun r _ => ?_
  rw [rowAt_eq]

/-- After the last point the first accumulator is the first weight update over all rows. -/
theorem total1_last (c : Dev nD) (n : ℕ) (h : n < cfg0.N) (hn : n = 511) :
    Chain.total1 m c n h = update1 (A0 m c) (A1 m c) (A2 m c) (X1 m c) (X2 m c) := by
  funext q
  obtain ⟨i, j, rfl⟩ : ∃ (i : Fin 12) (j : Fin 24), q = ix2 i j := ⟨q 0, q 1, eq_ix2 (n0 := 12) (n1 := 24) q⟩
  unfold update1
  exact (total1_entry m c i j n h).trans (all_parts1 m c n h hn i j)

/-- After the last point the second accumulator is the second weight update over all rows. -/
theorem total2_last (c : Dev nD) (n : ℕ) (h : n < cfg0.N) (hn : n = 511) :
    Chain.total2 m c n h = update2 (A0 m c) (A1 m c) (A2 m c) (X1 m c) (X2 m c) := by
  funext q
  obtain ⟨i, j, rfl⟩ : ∃ (i : Fin 24) (j : Fin 24), q = ix2 i j := ⟨q 0, q 1, eq_ix2 (n0 := 24) (n1 := 24) q⟩
  unfold update2
  exact (total2_entry m c i j n h).trans (all_parts2 m c n h hn i j)

end Cert.KernelIdeal.Result

end
-- ==== Proof.KernelValue.lean ====
/-
  What the kernel's four result arrays hold after its run, on the extended reals.

  Each point writes back block t of the two spike arrays: the spikes of rows 2048·t … 2048·t + 2047, so the spike
  arrays end as the specification's, block by block (row b lies in the block of point b / 2048). The two
  weight-update arrays are written back once, at the last point, with the running totals after all 512 points: the
  sums over all rows. Their one block is the whole array.
-/
import proofs.«138860_j46213848105973_2_alg».proof.Proof.Gen.KernelIdeal.Value
import proofs.«138860_j46213848105973_2_alg».proof.Proof.BlockSums
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Layer Cert.KernelIdeal.Blocks

variable (m : (ℓ : Loc nD τ sig) → Buf (Elt Ideal) ℓ) (ρ : Dev nD → PrngReg)

/-! ## What each point writes back -/

/-- Point t writes back block t of the first spike array. -/
theorem flushed7_eq (c : Dev nD) (t : Fin cfg0.N) :
    (dats m 0 c).flushed 7 t = ((cfg0.win 7).blk t).view.read (Elt Ideal) (spikes0 (A0 m c) (X1 m c)) := by
  rw [Value.flushed7, Chain.spikes0_at]
  funext y
  obtain ⟨r, i, rfl⟩ : ∃ (r : Fin 2048) (i : Fin 12), y = ix2 r i := ⟨y 0, y 1, eq_ix2 (n0 := 2048) (n1 := 12) y⟩
  show k0_pay4 (F := Ideal) (iblk m c 0 t) (iblk m c 2 t) (ix2 r i)
    = spikes0 (A0 m c) (X1 m c) (((cfg0.win 7).blk t).view.emb (ix2 r i))
  rw [s0_emb]
  exact blk_s0 m c t r i

/-- Point t writes back block t of the second spike array. -/
theorem flushed8_eq (c : Dev nD) (t : Fin cfg0.N) :
    (dats m 0 c).flushed 8 t = ((cfg0.win 8).blk t).view.read (Elt Ideal) (spikes1 (A0 m c) (A1 m c) (A2 m c) (X1 m c) (X2 m c)) := by
  rw [Value.flushed8, Chain.spikes1_at]
  funext y
  obtain ⟨r, j, rfl⟩ : ∃ (r : Fin 2048) (j : Fin 24), y = ix2 r j := ⟨y 0, y 1, eq_ix2 (n0 := 2048) (n1 := 24) y⟩
  show Chain.spikes1 m c t (ix2 r j) = spikes1 (A0 m c) (A1 m c) (A2 m c) (X1 m c) (X2 m c) (((cfg0.win 8).blk t).view.emb (ix2 r j))
  rw [s1_emb]
  exact blk_s1 m c t r j

/-- The first weight-update window's one block is its whole array: a buffer equal to an array is that block of it. -/
theorem whole5 (c : Dev nD) (t : Fin cfg0.N) (T G : Vec Ideal S12x24 .f32) (h : T = G) :
    (cfg0.win 5).cut (grid0.coords t) T = ((cfg0.win 5).blk t).view.read (Elt Ideal) G := by
  subst h
  funext q
  show T q = T (((cfg0.win 5).blk t).view.emb q)
  rw [dw1_emb]

/-- The second weight-update window's one block is its whole array. -/
theorem whole6 (c : Dev nD) (t : Fin cfg0.N) (T G : Vec Ideal S24x24 .f32) (h : T = G) :
    (cfg0.win 6).cut (grid0.coords t) T = ((cfg0.win 6).blk t).view.read (Elt Ideal) G := by
  subst h
  funext q
  show T q = T (((cfg0.win 6).blk t).view.emb q)
  rw [dw2_emb]

/-- The one write-back of the first weight update, at the last point, writes the sum over all rows. -/
theorem flushed5_eq (c : Dev nD) (t : Fin cfg0.N) (hf : (cfg0.win 5).flush t = true) :
    (dats m 0 c).flushed 5 t = ((cfg0.win 5).blk t).view.read (Elt Ideal) (update1 (A0 m c) (A1 m c) (A2 m c) (X1 m c) (X2 m c)) := by
  have h1 : t.val % 512 = 511 := (flush0_5 t).mp hf
  have hN := lt_512 t
  have ht : t.val = 511 := by omega
  rw [Value.flushed5, (Chain.copied_at m c t h1).1]
  exact whole5 c t _ _ (total1_last m c t.val t.isLt ht)

/-- The one write-back of the second weight update, at the last point, writes the sum over all rows. -/
theorem flushed6_eq (c : Dev nD) (t : Fin cfg0.N) (hf : (cfg0.win 6).flush t = true) :
    (dats m 0 c).flushed 6 t = ((cfg0.win 6).blk t).view.read (Elt Ideal) (update2 (A0 m c) (A1 m c) (A2 m c) (X1 m c) (X2 m c)) := by
  have h1 : t.val % 512 = 511 := (flush0_6 t).mp hf
  have hN := lt_512 t
  have ht : t.val = 511 := by omega
  rw [Value.flushed6, (Chain.copied_at m c t h1).2]
  exact whole6 c t _ _ (total2_last m c t.val t.isLt ht)

/-! ## The blocks cover the arrays -/

/-- An index of an array is in point t's block iff each coordinate is in the block's range on its axis. -/
theorem mem_blk7 (t : Fin cfg0.N) (q : S1048576x12.Idx) :
    q ∈ ((cfg0.win 7).blk t).view.set ↔ ∀ a : Fin 2, win0_7.index t a * S2048x12.size a ≤ (q a).val ∧ (q a).val < win0_7.index t a * S2048x12.size a + S2048x12.size a := by
  show q ∈ ((View.whole main_v0_2).slice (win0_7.rect t)).set ↔ _
  rw [View.set_slice_whole, Rect.mem_set_unit]
  exact Iff.rfl

theorem mem_blk8 (t : Fin cfg0.N) (q : S1048576x24.Idx) :
    q ∈ ((cfg0.win 8).blk t).view.set ↔ ∀ a : Fin 2, win0_8.index t a * S2048x24.size a ≤ (q a).val ∧ (q a).val < win0_8.index t a * S2048x24.size a + S2048x24.size a := by
  show q ∈ ((View.whole main_v0_3).slice (win0_8.rect t)).set ↔ _
  rw [View.set_slice_whole, Rect.mem_set_unit]
  exact Iff.rfl

theorem mem_blk5 (t : Fin cfg0.N) (q : S12x24.Idx) :
    q ∈ ((cfg0.win 5).blk t).view.set ↔ ∀ a : Fin 2, win0_5.index t a * S12x24.size a ≤ (q a).val ∧ (q a).val < win0_5.index t a * S12x24.size a + S12x24.size a := by
  show q ∈ ((View.whole main_v0_0).slice (win0_5.rect t)).set ↔ _
  rw [View.set_slice_whole, Rect.mem_set_unit]
  exact Iff.rfl

theorem mem_blk6 (t : Fin cfg0.N) (q : S24x24.Idx) :
    q ∈ ((cfg0.win 6).blk t).view.set ↔ ∀ a : Fin 2, win0_6.index t a * S24x24.size a ≤ (q a).val ∧ (q a).val < win0_6.index t a * S24x24.size a + S24x24.size a := by
  show q ∈ ((View.whole main_v0_1).slice (win0_6.rect t)).set ↔ _
  rw [View.set_slice_whole, Rect.mem_set_unit]
  exact Iff.rfl

/-- Row b of the first spike array lies in the block of point b / 2048. -/
theorem cover7 (q : S1048576x12.Idx) :
    ∃ t : Fin cfg0.N, (cfg0.win 7).flush t = true ∧ q ∈ ((cfg0.win 7).blk t).view.set := by
  have hq0 : (q 0).val < 1048576 := (q 0).isLt
  have hq1 : (q 1).val < 12 := (q 1).isLt
  obtain ⟨t, ht⟩ : ∃ t : Fin cfg0.N, t.val = (q 0).val / 2048 :=
    ⟨⟨(q 0).val / 2048, by rw [show cfg0.N = 512 from N_0]; omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 2048 ≤ (q 0).val ∧ (q 0).val < win0_7.index t (0 : Fin 2) * 2048 + 2048
    omega
  | ⟨1, _⟩ =>
    show win0_7.index t (1 : Fin 2) * 12 ≤ (q 1).val ∧ (q 1).val < win0_7.index t (1 : Fin 2) * 12 + 12
    omega

/-- Row b of the second spike array lies in the block of point b / 2048. -/
theorem cover8 (q : S1048576x24.Idx) :
    ∃ t : Fin cfg0.N, (cfg0.win 8).flush t = true ∧ q ∈ ((cfg0.win 8).blk t).view.set := by
  have hq0 : (q 0).val < 1048576 := (q 0).isLt
  have hq1 : (q 1).val < 24 := (q 1).isLt
  obtain ⟨t, ht⟩ : ∃ t : Fin cfg0.N, t.val = (q 0).val / 2048 :=
    ⟨⟨(q 0).val / 2048, by rw [show cfg0.N = 512 from N_0]; omega⟩, rfl⟩
  obtain ⟨-, -, -, -, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 2048 ≤ (q 0).val ∧ (q 0).val < win0_8.index t (0 : Fin 2) * 2048 + 2048
    omega
  | ⟨1, _⟩ =>
    show win0_8.index t (1 : Fin 2) * 24 ≤ (q 1).val ∧ (q 1).val < win0_8.index t (1 : Fin 2) * 24 + 24
    omega

/-- The last point's block of the first weight update is its whole array. -/
theorem cover5 (q : S12x24.Idx) :
    ∃ t : Fin cfg0.N, (cfg0.win 5).flush t = true ∧ q ∈ ((cfg0.win 5).blk t).view.set := by
  have hq0 : (q 0).val < 12 := (q 0).isLt
  have hq1 : (q 1).val < 24 := (q 1).isLt
  obtain ⟨t, ht⟩ : ∃ t : Fin cfg0.N, t.val = 511 := ⟨⟨511, by rw [show cfg0.N = 512 from N_0]; omega⟩, rfl⟩
  obtain ⟨-, -, -, -, -, -, -, -, -, -, e0, e1, -⟩ := idx_facts t
  refine ⟨t, (flush0_5 t).mpr (by rw [ht]), ?_⟩
  rw [mem_blk5]
  intro a
  match a with
  | ⟨0, _⟩ =>
    show win0_5.index t (0 : Fin 2) * 12 ≤ (q 0).val ∧ (q 0).val < win0_5.index t (0 : Fin 2) * 12 + 12
    omega
  | ⟨1, _⟩ =>
    show win0_5.index t (1 : Fin 2) * 24 ≤ (q 1).val ∧ (q 1).val < win0_5.index t (1 : Fin 2) * 24 + 24
    omega

/-- The last point's block of the second weight update is its whole array. -/
theorem cover6 (q : S24x24.Idx) :
    ∃ t : Fin cfg0.N, (cfg0.win 6).flush t = true ∧ q ∈ ((cfg0.win 6).blk t).view.set := by
  have hq0 : (q 0).val < 24 := (q 0).isLt
  have hq1 : (q 1).val < 24 := (q 1).isLt
  obtain ⟨t, ht⟩ : ∃ t : Fin cfg0.N, t.val = 511 := ⟨⟨511, by rw [show cfg0.N = 512 from N_0]; omega⟩, rfl⟩
  obtain ⟨-, -, -, -, -, -, -, -, -, -, -, -, e0, e1, -⟩ := idx_facts t
  refine ⟨t, (flush0_6 t).mpr (by rw [ht]), ?_⟩
  rw [mem_blk6]
  intro a
  match a with
  | ⟨0, _⟩ =>
    show win0_6.index t (0 : Fin 2) * 24 ≤ (q 0).val ∧ (q 0).val < win0_6.index t (0 : Fin 2) * 24 + 24
    omega
  | ⟨1, _⟩ =>
    show win0_6.index t (1 : Fin 2) * 24 ≤ (q 1).val ∧ (q 1).val < win0_6.index t (1 : Fin 2) * 24 + 24
    omega

/-! ## The arrays after the run -/

theorem final_dw1 (c : Dev nD) : (dats m 0 c).arrAt 5 cfg0.N = update1 (A0 m c) (A1 m c) (A2 m c) (X1 m c) (X2 m c) :=
  (dats m 0 c).arrAt_eq_of_cover 5 _ (flushed5_eq m c) cover5

theorem final_dw2 (c : Dev nD) : (dats m 0 c).arrAt 6 cfg0.N = update2 (A0 m c) (A1 m c) (A2 m c) (X1 m c) (X2 m c) :=
  (dats m 0 c).arrAt_eq_of_cover 6 _ (flushed6_eq m c) cover6

theorem final_s0 (c : Dev nD) : (dats m 0 c).arrAt 7 cfg0.N = spikes0 (A0 m c) (X1 m c) :=
  (dats m 0 c).arrAt_eq_of_cover 7 _ (fun t _ => flushed7_eq m c t) cover7

theorem final_s1 (c : Dev nD) : (dats m 0 c).arrAt 8 cfg0.N = spikes1 (A0 m c) (A1 m c) (A2 m c) (X1 m c) (X2 m c) :=
  (dats m 0 c).arrAt_eq_of_cover 8 _ (fun t _ => flushed8_eq m c t) cover8

/-- The kernel's run, read: every weakly fair execution terminates with the four result arrays at the
    specification's functions of the launch arguments, the arguments unchanged. -/
theorem run : θ_run defs (onTc (τ := τ) (main (F := Ideal))) ⟨m, fun _ => 0, ρ⟩ fun r => ∀ c : Dev nD,
      r.2.mem ((c : Thread nD τ).loc main_v0_0) = update1 (A0 m c) (A1 m c) (A2 m c) (X1 m c) (X2 m c)
      ∧ r.2.mem ((c : Thread nD τ).loc main_v0_1) = update2 (A0 m c) (A1 m c) (A2 m c) (X1 m c) (X2 m c)
      ∧ r.2.mem ((c : Thread nD τ).loc main_v0_2) = spikes0 (A0 m c) (X1 m c)
      ∧ r.2.mem ((c : Thread nD τ).loc main_v0_3) = spikes1 (A0 m c) (A1 m c) (A2 m c) (X1 m c) (X2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_dw1 m c), (h c).2.1.trans (final_dw2 m c),
      (h c).2.2.1.trans (final_s0 m c), (h c).2.2.2.1.trans (final_s1 m c), (h c).2.2.2.2⟩)
    (Value.run_blocks m ρ)

end Cert.KernelIdeal.Result

end
-- ==== Proof.Reference.lean ====
/-
  The reference's four results are the four array functions of the specification.

  The reference computes the same quantities over the whole arrays: a product of the inputs with the first weights,
  a comparison with 1/2 turned into a number, a sum of two products, the comparison again, and two contractions
  over the row axis of both operands. Each host product is a plain sum of products at the ideal instance; the
  comparison's bit read unsigned is the spike.
-/
import proofs.«138860_j46213848105973_2_alg».proof.Proof.Gen.ReferenceIdeal.Read
import proofs.«138860_j46213848105973_2_alg».proof.Proof.Arrays

noncomputable section

namespace Cert.ReferenceIdeal.RefValue

open Cert.ReferenceIdeal Cert.ReferenceIdeal.Gen Cert.ReferenceIdeal.Read Idealize.ShloMosaic Idealize.ShloMosaic.ValueIdx
open Cert.Layer

variable (x1 : (⟨S1048576x12, .f32⟩ : BufTy).Contents (Elt Ideal)) (x2 : (⟨S1048576x24, .f32⟩ : BufTy).Contents (Elt Ideal))
  (w0 : (⟨S12x12, .f32⟩ : BufTy).Contents (Elt Ideal)) (w1 : (⟨S12x24, .f32⟩ : BufTy).Contents (Elt Ideal))
  (w2 : (⟨S24x24, .f32⟩ : BufTy).Contents (Elt Ideal))

/-- The comparison with the threshold word, its bit read unsigned, is the spike. -/
theorem spike_eq_unsigned (x : EReal) :
    FloatOps.uitofp (F := Ideal) .f32 (FloatOps.cmpf (F := Ideal) .ogt x (FloatOps.ofBits (F := Ideal) .f32 0x3F000000#32))
      = spike x := by
  rw [Ideal.cmpf_def, Ideal.ofBits_def]
  rfl

/-- The first comparison's result is the first spike array. -/
theorem first_spikes : val_main_v3 (F := Ideal) x1 w0 = spikes0 w0 x1 := by
  funext q
  obtain ⟨b, i, rfl⟩ : ∃ (b : Fin 1048576) (i : Fin 12), q = ix2 b i := ⟨q 0, q 1, eq_ix2 q⟩
  have el : ∀ k : Fin 12, lidx_main_v0 (ix2 b i) k = ix2 b k := fun k =>
    funext fun a => Fin.ext (by match a with | ⟨0, _⟩ => rfl | ⟨1, _⟩ => rfl)
  have er : ∀ k : Fin 12, ridx_main_v0 (ix2 b i) k = ix2 k i := fun k =>
    funext fun a => Fin.ext (by match a with | ⟨0, _⟩ => rfl | ⟨1, _⟩ => rfl)
  rw [val_main_v3_apply, val_main_v2_apply, val_main_v0_apply, val_main_v1_apply, val_main_cst_apply]
  refine (spike_eq_unsigned _).trans ?_
  show spike _ = s0 w0 (row x1 b) i
  unfold s0
  refine congrArg spike (Finset.sum_congr rfl fun k _ => ?_)
  rw [el k, er k]

/-- The second comparison's result is the second spike array. -/
theorem second_spikes : val_main_v9 (F := Ideal) x1 x2 w0 w1 w2 = spikes1 w0 w1 w2 x1 x2 := by
  funext q
  obtain ⟨b, j, rfl⟩ : ∃ (b : Fin 1048576) (j : Fin 24), q = ix2 b j := ⟨q 0, q 1, eq_ix2 q⟩
  have el4 : ∀ k : Fin 12, lidx_main_v4 (ix2 b j) k = ix2 b k := fun k =>
    funext fun a => Fin.ext (by match a with | ⟨0, _⟩ => rfl | ⟨1, _⟩ => rfl)
  have er4 : ∀ k : Fin 12, ridx_main_v4 (ix2 b j) k = ix2 k j := fun k =>
    funext fun a => Fin.ext (by match a with | ⟨0, _⟩ => rfl | ⟨1, _⟩ => rfl)
  have el5 : ∀ k : Fin 24, lidx_main_v5 (ix2 b j) k = ix2 b k := fun k =>
    funext fun a => Fin.ext (by match a with | ⟨0, _⟩ => rfl | ⟨1, _⟩ => rfl)
  have er5 : ∀ k : Fin 24, ridx_main_v5 (ix2 b j) k = ix2 k j := fun k =>
    funext fun a => Fin.ext (by match a with | ⟨0, _⟩ => rfl | ⟨1, _⟩ => rfl)
  rw [val_main_v9_apply, val_main_v8_apply, val_main_v6_apply, val_main_v4_apply, val_main_v5_apply, val_main_v7_apply,
    val_main_cst_0_apply, first_spikes]
  refine (spike_eq_unsigned _).trans ?_
  show spike _ = s1 w0 w1 w2 (row x1 b) (row x2 b) j
  unfold s1
  refine congrArg spike (congrArg₂ (· + ·) (Finset.sum_congr rfl fun k _ => ?_) (Finset.sum_congr rfl fun k _ => ?_))
  · rw [el4 k, er4 k]
    rfl
  · rw [el5 k, er5 k]

/-- The first contraction over the rows is the first weight update. -/
theorem first_update : val_main_v10 (F := Ideal) x1 x2 w0 w1 w2 = update1 w0 w1 w2 x1 x2 := by
  funext q
  obtain ⟨i, j, rfl⟩ : ∃ (i : Fin 12) (j : Fin 24), q = ix2 i j := ⟨q 0, q 1, eq_ix2 q⟩
  have el : ∀ k : Fin 1048576, lidx_main_v10 (ix2 i j) k = ix2 k i := fun k =>
    funext fun a => Fin.ext (by match a with | ⟨0, _⟩ => rfl | ⟨1, _⟩ => rfl)
  have er : ∀ k : Fin 1048576, ridx_main_v10 (ix2 i j) k = ix2 k j := fun k =>
    funext fun a => Fin.ext (by match a with | ⟨0, _⟩ => rfl | ⟨1, _⟩ => rfl)
  rw [val_main_v10_apply, first_spikes, second_spikes]
  show _ = dw1 w0 w1 w2 x1 x2 i j
  unfold dw1
  refine Finset.sum_congr rfl fun k _ => ?_
  rw [el k, er k]
  rfl

/-- The second contraction over the rows is the second weight update. -/
theorem second_update : val_main_v11 (F := Ideal) x1 x2 w0 w1 w2 = update2 w0 w1 w2 x1 x2 := by
  funext q
  obtain ⟨i, j, rfl⟩ : ∃ (i : Fin 24) (j : Fin 24), q = ix2 i j := ⟨q 0, q 1, eq_ix2 q⟩
  have el : ∀ k : Fin 1048576, lidx_main_v11 (ix2 i j) k = ix2 k i := fun k =>
    funext fun a => Fin.ext (by match a with | ⟨0, _⟩ => rfl | ⟨1, _⟩ => rfl)
  have er : ∀ k : Fin 1048576, ridx_main_v11 (ix2 i j) k = ix2 k j := fun k =>
    funext fun a => Fin.ext (by match a with | ⟨0, _⟩ => rfl | ⟨1, _⟩ => rfl)
  rw [val_main_v11_apply, second_spikes]
  show _ = dw2 w0 w1 w2 x1 x2 i j
  unfold dw2
  refine Finset.sum_congr rfl fun k _ => ?_
  rw [el k, er k]
  rfl

end Cert.ReferenceIdeal.RefValue

end
-- ==== Proof.lean ====
/-
  A two-layer integrate-and-fire step with its two weight-update sums, tiled over rows by a kernel, against the
  same computation on whole arrays.

  Both programs compute, for 1048576 rows, the first layer's spikes s0 = [x1·W0 > 1/2], the second layer's spikes
  s1 = [s0·W1 + x2·W2 > 1/2], and the sums over all rows of the outer products s0ᵀs1 and x2ᵀs1. The kernel does it
  2048 rows at a time over 512 grid points, keeping the two sums in accumulators that are reset at the first point,
  added to at every point and copied out at the last. On the extended reals every product of matrices is a plain
  finite sum of products and the comparison's bit read as a number is the same spike on both sides, so:
  • the spike arrays agree entry by entry, because a row's spikes depend on that row alone;
  • the weight updates agree because the sum over all rows is the sum, over the blocks, of the sums over each
    block's rows — a regrouping of one finite sum in a commutative monoid, valid with infinite entries too.
  Nothing is assumed finite: the precondition is never opened.

  The three frames are the generated ones (the reference's is its generated run with the results dropped); the
  idealization rewrote nothing, so there is nothing to preserve.
-/
import proofs.«138860_j46213848105973_2_alg».proof.Defs
import proofs.«138860_j46213848105973_2_alg».proof.Proof.Gen.Kernel
import proofs.«138860_j46213848105973_2_alg».proof.Proof.Gen.Kernel.Frame
import proofs.«138860_j46213848105973_2_alg».proof.Proof.Gen.KernelIdeal
import proofs.«138860_j46213848105973_2_alg».proof.Proof.Gen.KernelIdeal.Frame
import proofs.«138860_j46213848105973_2_alg».proof.Proof.Gen.ReferenceIdeal
import proofs.«138860_j46213848105973_2_alg».proof.Proof.Gen.ReferenceIdeal.Run
import proofs.«138860_j46213848105973_2_alg».proof.Proof.Gen.ReferenceIdeal.Read
import proofs.«138860_j46213848105973_2_alg».proof.Proof.Gen.Pre_finite_inputs
import proofs.«138860_j46213848105973_2_alg».proof.Proof.KernelValue
import proofs.«138860_j46213848105973_2_alg».proof.Proof.Reference
import Idealize.ShloMosaic.Adequacy
import Idealize.ShloMosaic.Init

noncomputable section

namespace Cert.Proof

open Idealize.ShloMosaic Idealize.ShloMosaic.TcCoe Idealize.SL.Sem Cert.Layer

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the results dropped. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- At the ideal instance both programs end with the four results at the specification's functions of arguments
    that agree. -/
theorem algebraic : Cert.algebraic_KernelIdeal_ReferenceIdeal := by
  intro m ρ m' ρ' _ hagree
  refine ⟨fun c => update1 (Cert.KernelIdeal.Result.A0 m c) (Cert.KernelIdeal.Result.A1 m c) (Cert.KernelIdeal.Result.A2 m c) (Cert.KernelIdeal.Result.X1 m c) (Cert.KernelIdeal.Result.X2 m c), fun c => update2 (Cert.KernelIdeal.Result.A0 m c) (Cert.KernelIdeal.Result.A1 m c) (Cert.KernelIdeal.Result.A2 m c) (Cert.KernelIdeal.Result.X1 m c) (Cert.KernelIdeal.Result.X2 m c),
    fun c => spikes0 (Cert.KernelIdeal.Result.A0 m c) (Cert.KernelIdeal.Result.X1 m c), fun c => spikes1 (Cert.KernelIdeal.Result.A0 m c) (Cert.KernelIdeal.Result.A1 m c) (Cert.KernelIdeal.Result.A2 m c) (Cert.KernelIdeal.Result.X1 m c) (Cert.KernelIdeal.Result.X2 m c),
    Cert.KernelIdeal.Result.run m ρ, ?_⟩
  refine (θ_run Cert.ReferenceIdeal.defs _ _).mono (fun _ h c => ?_) (Cert.ReferenceIdeal.Value.run (F := Ideal) m' ρ')
  obtain ⟨h10, h11, h3, h9, hargs⟩ := h c
  obtain ⟨a0, a1, a2, a3, a4⟩ := hagree c
  refine ⟨?_, ?_, ?_, ?_, hargs⟩
  · rw [h10, Cert.ReferenceIdeal.Read.val_main_v10_eq, Cert.ReferenceIdeal.RefValue.first_update, a0, a1, a2, a3, a4]
  · rw [h11, Cert.ReferenceIdeal.Read.val_main_v11_eq, Cert.ReferenceIdeal.RefValue.second_update, a0, a1, a2, a3, a4]
  · rw [h3, Cert.ReferenceIdeal.Read.val_main_v3_eq, Cert.ReferenceIdeal.RefValue.first_spikes, a0, a2]
  · rw [h9, Cert.ReferenceIdeal.Read.val_main_v9_eq, Cert.ReferenceIdeal.RefValue.second_spikes, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
